-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x64x1024 : Shape := ⟨3, ![1, 64, 1024]⟩
abbrev S512x64x1024 : Shape := ⟨3, ![512, 64, 1024]⟩
abbrev S64x512 : Shape := ⟨2, ![64, 512]⟩
abbrev S1024x2048 : Shape := ⟨2, ![1024, 2048]⟩
abbrev S1024 : Shape := ⟨1, ![1024]⟩
abbrev S1x1024 : Shape := ⟨2, ![1, 1024]⟩
abbrev S_ : Shape := ⟨0, ![]⟩

class Facts : Prop where
  bcast_S_S1x64x1024 : S_.BroadcastsInDim S1x64x1024 (![] : Fin 0 → Fin S1x64x1024.rank)
  reducesTo_S1x64x1024_S_d0_1_2 : S1x64x1024.ReducesTo [0, 1, 2] S_
  h_S_ : 0 < S_.numel
  bcast_S_S512x64x1024 : S_.BroadcastsInDim S512x64x1024 (![] : Fin 0 → Fin S512x64x1024.rank)
  reducesTo_S512x64x1024_S_d0_1_2 : S512x64x1024.ReducesTo [0, 1, 2] S_
  bcast_S_S64x512 : S_.BroadcastsInDim S64x512 (![] : Fin 0 → Fin S64x512.rank)
  reducesTo_S64x512_S_d0_1 : S64x512.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg5 : FVec F S1024 .f32) (main_arg6 : FVec F S1x1024 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1x1024 .f32 := Host.absf main_arg6
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  main_v28

def fn {F : FTy → Type} [FloatOps F] (main_arg0 : FVec F S1x64x1024 .f32) (main_arg1 : FVec F S512x64x1024 .f32) (main_arg2 : FVec F S64x512 .f32) (main_arg3 : IVec S64x512 1) (main_arg4 : FVec F S1024x2048 .f32) (main_arg5 : FVec F S1024 .f32) (main_arg6 : FVec F S1x1024 .f32) : IVec S_ 1 :=
  let main_v0 : FVec F S1x64x1024 .f32 := Host.absf main_arg0
  let main_cst : FVec F S_ .f32 := constant S_ .f32 0x7F800000#32
  let main_v1 : FVec F S1x64x1024 .f32 := broadcastInDim S1x64x1024 ![] bcast_S_S1x64x1024 main_cst
  let main_v2 : IVec S1x64x1024 1 := cmpf .olt main_v0 main_v1
  let main_c : IVec S_ 1 := constantI S_ 1 1#1
  let main_v3 : IVec S_ 1 := (fun x v => Host.reduce IntOp.andi x v reducesTo_S1x64x1024_S_d0_1_2 h_S_) main_v2 main_c
  let main_v4 : FVec F S512x64x1024 .f32 := Host.absf main_arg1
  let main_cst_0 : FVec F S_ .f32 := constant S_ .f32 0x7F800000#32
  let main_v5 : FVec F S512x64x1024 .f32 := broadcastInDim S512x64x1024 ![] bcast_S_S512x64x1024 main_cst_0
  let main_v6 : IVec S512x64x1024 1 := cmpf .olt main_v4 main_v5
  let main_c_1 : IVec S_ 1 := constantI S_ 1 1#1
  let main_v7 : IVec S_ 1 := (fun x v => Host.reduce IntOp.andi x v reducesTo_S512x64x1024_S_d0_1_2 h_S_) main_v6 main_c_1
  let main_v8 : IVec S_ 1 := andi main_v3 main_v7
  let main_v9 : FVec F S64x512 .f32 := Host.absf main_arg2
  let main_cst_2 : FVec F S_ .f32 := constant S_ .f32 0x7F800000#32
  let main_v10 : FVec F S64x512 .f32 := broadcastInDim S64x512 ![] bcast_S_S64x512 main_cst_2
  let main_v11 : IVec S64x512 1 := cmpf .olt main_v9 main_v10
  let main_c_3 : IVec S_ 1 := constantI S_ 1 1#1
  let main_v12 : IVec S_ 1 := (fun x v => Host.reduce IntOp.andi x v reducesTo_S64x512_S_d0_1 h_S_) main_v11 main_c_3
  let main_v13 : IVec S_ 1 := andi main_v8 main_v12
  let main_v14 : FVec F S1024x2048 .f32 := Host.absf main_arg4
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg5 main_arg6 main_v13 main_v16
-- ==== Kernel.lean ====
abbrev S1x64x1024 : Shape := ⟨3, ![1, 64, 1024]⟩
abbrev S512x64x1024 : Shape := ⟨3, ![512, 64, 1024]⟩
abbrev S64x512 : Shape := ⟨2, ![64, 512]⟩
abbrev S1024x2048 : Shape := ⟨2, ![1024, 2048]⟩
abbrev S1024 : Shape := ⟨1, ![1024]⟩
abbrev S1x1024 : Shape := ⟨2, ![1, 1024]⟩
abbrev S1024x1024 : Shape := ⟨2, ![1024, 1024]⟩
abbrev S64x1024 : Shape := ⟨2, ![64, 1024]⟩
abbrev S1024x1 : Shape := ⟨2, ![1024, 1]⟩
abbrev S32768x1024 : Shape := ⟨2, ![32768, 1024]⟩
abbrev S512x64 : Shape := ⟨2, ![512, 64]⟩
abbrev S2048x1024 : Shape := ⟨2, ![2048, 1024]⟩
abbrev S32x64 : Shape := ⟨2, ![32, 64]⟩
abbrev S32x64x1024 : Shape := ⟨3, ![32, 64, 1024]⟩
abbrev S2048x1 : Shape := ⟨2, ![2048, 1]⟩
abbrev S64 : Shape := ⟨1, ![64]⟩
abbrev S64x1 : Shape := ⟨2, ![64, 1]⟩
abbrev S64x1x512 : Shape := ⟨3, ![64, 1, 512]⟩

abbrev nBuf : Space → Nat
  | .hbm => 24
  | .vmem => 11
  | .smem => 0
  | _ => 0

abbrev bufTy : (tb : Table) → Fin (tcTables nBuf tb) → BufTy
  | .hbm, ⟨0, _⟩ => ⟨S1x64x1024, .f32⟩
  | .hbm, ⟨1, _⟩ => ⟨S512x64x1024, .f32⟩
  | .hbm, ⟨2, _⟩ => ⟨S64x512, .f32⟩
  | .hbm, ⟨3, _⟩ => ⟨S64x512, .i1⟩
  | .hbm, ⟨4, _⟩ => ⟨S1024x2048, .f32⟩
  | .hbm, ⟨5, _⟩ => ⟨S1024, .f32⟩
  | .hbm, ⟨6, _⟩ => ⟨S1x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S64x1024, .f32⟩
  | .hbm, ⟨12, _⟩ => ⟨S64x1024, .f32⟩
  | .hbm, ⟨13, _⟩ => ⟨S1x1024, .f32⟩
  | .hbm, ⟨14, _⟩ => ⟨S64x1024, .f32⟩
  | .hbm, ⟨15, _⟩ => ⟨S64x1024, .f32⟩
  | .hbm, ⟨16, _⟩ => ⟨S1024x1024, .bf16⟩
  | .hbm, ⟨17, _⟩ => ⟨S1024x1, .f32⟩
  | .hbm, ⟨18, _⟩ => ⟨S1024x1, .bf16⟩
  | .hbm, ⟨19, _⟩ => ⟨S32768x1024, .f32⟩
  | .hbm, ⟨20, _⟩ => ⟨S512x64, .f32⟩
  | .hbm, ⟨21, _⟩ => ⟨S64x512, .i32⟩
  | .hbm, ⟨22, _⟩ => ⟨S64x512, .f32⟩
  | .hbm, ⟨23, _⟩ => ⟨S64x1x512, .f32⟩
  | .local _ .vmem, ⟨0, _⟩ => ⟨S2048x1024, .f32⟩
  | .local _ .vmem, ⟨1, _⟩ => ⟨S2048x1024, .f32⟩
  | .local _ .vmem, ⟨2, _⟩ => ⟨S1024x1024, .bf16⟩
  | .local _ .vmem, ⟨3, _⟩ => ⟨S64x1024, .f32⟩
  | .local _ .vmem, ⟨4, _⟩ => ⟨S1024x1, .bf16⟩
  | .local _ .vmem, ⟨5, _⟩ => ⟨S32x64, .f32⟩
  | .local _ .vmem, ⟨6, _⟩ => ⟨S32x64, .f32⟩
  | .local _ .vmem, ⟨7, _⟩ => ⟨S512x64, .f32⟩
  | .local _ .vmem, ⟨8, _⟩ => ⟨S64x512, .f32⟩
  | .local _ .vmem, ⟨9, _⟩ => ⟨S64x512, .i32⟩
  | .local _ .vmem, ⟨10, _⟩ => ⟨S64x512, .f32⟩
  | _, _ => ⟨S1x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem1_0 : DmaSem sig := 8
abbrev cc1_sem2_0 : DmaSem sig := 9
abbrev cc1_sem3_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S512x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S64x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x512 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  slices_S1024x2048_S1024x1024_0_0 : S1024x2048.Slices ![0, 0] S1024x1024
  slices_S1024x2048_S1024x1024_0_1024 : S1024x2048.Slices ![0, 1024] S1024x1024
  transposes_S1024x1024_S1024x1024_1_0 : S1024x1024.Transposes [1, 0] S1024x1024
  shapeCasts_S1x64x1024_S64x1024 : S1x64x1024.ShapeCasts S64x1024
  bcast_S1024_S1x1024_1 : S1024.BroadcastsInDim S1x1024 (![1] : Fin 1 → Fin S1x1024.rank)
  bcast_S1x1024_S64x1024_0_1 : S1x1024.BroadcastsInDim S64x1024 (![0, 1] : Fin 2 → Fin S64x1024.rank)
  bitsLt_bf16_f32 : FTy.bits .bf16 < FTy.bits .f32
  transposes_S1x1024_S1024x1_1_0 : S1x1024.Transposes [1, 0] S1024x1
  shapeCasts_S512x64x1024_S32768x1024 : S512x64x1024.ShapeCasts S32768x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S2048x1024_S32x64x1024 : S2048x1024.ShapeCasts S32x64x1024
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  shapeCasts_S64x1024_S1x64x1024 : S64x1024.ShapeCasts S1x64x1024
  broadcasts_S1x64x1024_S32x64x1024 : S1x64x1024.Broadcasts S32x64x1024
  shapeCasts_S32x64x1024_S2048x1024 : S32x64x1024.ShapeCasts S2048x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S2048x1_S32x64 : S2048x1.ShapeCasts S32x64
  inb_S32x64_S32x64_0_0 : ∀ a, (![0, 0] : Fin 2 → Nat) a + S32x64.size a ≤ S32x64.size a
  h_S32x64 : 0 < S32x64.numel
  natLt_1_32 : 1 < 32
  inb_S512x64_S512x64_0_0 : ∀ a, (![0, 0] : Fin 2 → Nat) a + S512x64.size a ≤ S512x64.size a
  h_S512x64 : 0 < S512x64.numel
  shapeCasts_S512x64_S512x64 : S512x64.ShapeCasts S512x64
  transposes_S512x64_p1_0_S64x512 : S512x64.Transposes [1, 0] S64x512
  inb_S64x512_S64x512_0_0 : ∀ a, (![0, 0] : Fin 2 → Nat) a + S64x512.size a ≤ S64x512.size a
  h_S64x512 : 0 < S64x512.numel
  shapeCasts_S64x512_S64x512 : S64x512.ShapeCasts S64x512
  reduces_S64x512_S64 : S64x512.Reduces [1] S64
  shapeCasts_S64_S64x1 : S64.ShapeCasts S64x1
  broadcasts_S64x1_S64x512 : S64x1.Broadcasts S64x512
  bcast_S64x512_S64x1x512_0_2 : S64x512.BroadcastsInDim S64x1x512 (![0, 2] : Fin 2 → Fin S64x1x512.rank)
  dot_S64x1024_S1024x1024_S64x1024_1_0_0_1_n_n_wf : DotDims.WF S64x1024 S1024x1024 S64x1024 [1] [0] [0] [1] [] []
  dot_S2048x1024_S1024x1024_S2048x1024_1_0_0_1_n_n_wf : DotDims.WF S2048x1024 S1024x1024 S2048x1024 [1] [0] [0] [1] [] []
  dot_S2048x1024_S1024x1_S2048x1_1_0_0_1_n_n_wf : DotDims.WF S2048x1024 S1024x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S32768x1024.size a
  hwx0_0 : ∀ i : grid0.Coords, EltTy.bits .f32 = 32 ∨ (Rect.block (s := S32768x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1024.size a ≤ S64x1024.size a
  hwx0_2 : ∀ i : grid0.Coords, EltTy.bits .f32 = 32 ∨ (Rect.block (s := S64x1024) S64x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S1024x1.size a
  hwx0_3 : ∀ i : grid0.Coords, EltTy.bits .bf16 = 32 ∨ (Rect.block (s := S1024x1) S1024x1.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x64.size a ≤ S512x64.size a
  hwx0_4 : ∀ i : grid0.Coords, EltTy.bits .f32 = 32 ∨ (Rect.block (s := S512x64) S32x64.size (cc0_transform_4 i) (hinb0_4 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x64.size a ≤ S512x64.size a
  hwx1_0 : ∀ i : grid1.Coords, EltTy.bits .f32 = 32 ∨ (Rect.block (s := S512x64) S512x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x512.size a ≤ S64x512.size a
  hwx1_1 : ∀ i : grid1.Coords, EltTy.bits .f32 = 32 ∨ (Rect.block (s := S64x512) S64x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x512.size a ≤ S64x512.size a
  hwx1_2 : ∀ i : grid1.Coords, EltTy.bits .i32 = 32 ∨ (Rect.block (s := S64x512) S64x512.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x512.size a ≤ S64x512.size a
  hwx1_3 : ∀ i : grid1.Coords, EltTy.bits .f32 = 32 ∨ (Rect.block (s := S64x512) S64x512.size (cc1_transform_3 i) (hinb1_3 i)).WholeWords (EltTy.packing .f32)

variable [Facts₀]

def dot_S64x1024_S1024x1024_S64x1024_1_0_0_1_n_n : DotDims S64x1024 S1024x1024 S64x1024 where
  lhsContracting := [1]
  rhsContracting := [0]
  lhsNonContracting := [0]
  rhsNonContracting := [1]
  lhsBatch := []
  rhsBatch := []
  wf := dot_S64x1024_S1024x1024_S64x1024_1_0_0_1_n_n_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S2048x1024_S1024x1_S2048x1_1_0_0_1_n_n : DotDims S2048x1024 S1024x1 S2048x1 where
  lhsContracting := [1]
  rhsContracting := [0]
  lhsNonContracting := [0]
  rhsNonContracting := [1]
  lhsBatch := []
  rhsBatch := []
  wf := dot_S2048x1024_S1024x1_S2048x1_1_0_0_1_n_n_wf

abbrev win0_0 : Pipeline.Window sig grid0 :=
  Pipeline.Window.ofSpec (Memref.whole main_v12) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S64x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1024x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S32x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v13) S512x64.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S64x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S64x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S64x512.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1x64x1024 : Shape := ⟨3, ![1, 64, 1024]⟩
abbrev S512x64x1024 : Shape := ⟨3, ![512, 64, 1024]⟩
abbrev S64x512 : Shape := ⟨2, ![64, 512]⟩
abbrev S1024x2048 : Shape := ⟨2, ![1024, 2048]⟩
abbrev S1024 : Shape := ⟨1, ![1024]⟩
abbrev S1x1024 : Shape := ⟨2, ![1, 1024]⟩
abbrev S512x64x2048 : Shape := ⟨3, ![512, 64, 2048]⟩
abbrev S1x1x1024 : Shape := ⟨3, ![1, 1, 1024]⟩
abbrev S_ : Shape := ⟨0, ![]⟩
abbrev S512x64x1 : Shape := ⟨3, ![512, 64, 1]⟩
abbrev S512x64 : Shape := ⟨2, ![512, 64]⟩
abbrev S64 : Shape := ⟨1, ![64]⟩
abbrev S64x1 : Shape := ⟨2, ![64, 1]⟩
abbrev S64x1x512 : Shape := ⟨3, ![64, 1, 512]⟩

abbrev nBuf : Space → Nat
  | .hbm => 41
  | .vmem => 0
  | .smem => 0
  | _ => 0

abbrev bufTy : (tb : Table) → Fin (tcTables nBuf tb) → BufTy
  | .hbm, ⟨0, _⟩ => ⟨S1x64x1024, .f32⟩
  | .hbm, ⟨1, _⟩ => ⟨S512x64x1024, .f32⟩
  | .hbm, ⟨2, _⟩ => ⟨S64x512, .f32⟩
  | .hbm, ⟨3, _⟩ => ⟨S64x512, .i1⟩
  | .hbm, ⟨4, _⟩ => ⟨S1024x2048, .f32⟩
  | .hbm, ⟨5, _⟩ => ⟨S1024, .f32⟩
  | .hbm, ⟨6, _⟩ => ⟨S1x1024, .f32⟩
  | .hbm, ⟨7, _⟩ => ⟨S512x64x1024, .f32⟩
  | .hbm, ⟨8, _⟩ => ⟨S512x64x2048, .f32⟩
  | .hbm, ⟨9, _⟩ => ⟨S512x64x1024, .f32⟩
  | .hbm, ⟨10, _⟩ => ⟨S1x1x1024, .f32⟩
  | .hbm, ⟨11, _⟩ => ⟨S512x64x1024, .f32⟩
  | .hbm, ⟨12, _⟩ => ⟨S512x64x1024, .f32⟩
  | .hbm, ⟨13, _⟩ => ⟨S_, .f32⟩
  | .hbm, ⟨14, _⟩ => ⟨S512x64x1024, .f32⟩
  | .hbm, ⟨15, _⟩ => ⟨S512x64x1024, .f32⟩
  | .hbm, ⟨16, _⟩ => ⟨S512x64x1, .f32⟩
  | .hbm, ⟨17, _⟩ => ⟨S512x64, .f32⟩
  | .hbm, ⟨18, _⟩ => ⟨S_, .f32⟩
  | .hbm, ⟨19, _⟩ => ⟨S512x64, .f32⟩
  | .hbm, ⟨20, _⟩ => ⟨S512x64, .f32⟩
  | .hbm, ⟨21, _⟩ => ⟨S64x512, .f32⟩
  | .hbm, ⟨22, _⟩ => ⟨S64x512, .f32⟩
  | .hbm, ⟨23, _⟩ => ⟨S_, .f32⟩
  | .hbm, ⟨24, _⟩ => ⟨S64x512, .f32⟩
  | .hbm, ⟨25, _⟩ => ⟨S64x512, .f32⟩
  | .hbm, ⟨26, _⟩ => ⟨S_, .f32⟩
  | .hbm, ⟨27, _⟩ => ⟨S64, .f32⟩
  | .hbm, ⟨28, _⟩ => ⟨S_, .f32⟩
  | .hbm, ⟨29, _⟩ => ⟨S64, .f32⟩
  | .hbm, ⟨30, _⟩ => ⟨S64, .f32⟩
  | .hbm, ⟨31, _⟩ => ⟨S64x1, .f32⟩
  | .hbm, ⟨32, _⟩ => ⟨S64x512, .f32⟩
  | .hbm, ⟨33, _⟩ => ⟨S64x512, .f32⟩
  | .hbm, ⟨34, _⟩ => ⟨S64x512, .f32⟩
  | .hbm, ⟨35, _⟩ => ⟨S_, .f32⟩
  | .hbm, ⟨36, _⟩ => ⟨S64, .f32⟩
  | .hbm, ⟨37, _⟩ => ⟨S64x1, .f32⟩
  | .hbm, ⟨38, _⟩ => ⟨S64x512, .f32⟩
  | .hbm, ⟨39, _⟩ => ⟨S64x512, .f32⟩
  | .hbm, ⟨40, _⟩ => ⟨S64x1x512, .f32⟩
  | _, _ => ⟨S1x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_cst : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_call1_v0 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]

class Facts₀ : Prop where
  bcast_S1x64x1024_S512x64x1024_0_1_2 : S1x64x1024.BroadcastsInDim S512x64x1024 (![0, 1, 2] : Fin 3 → Fin S512x64x1024.rank)
  concatenates_S512x64x1024_S512x64x1024_S512x64x2048_d2 : Shape.Concatenates [S512x64x1024, S512x64x1024] S512x64x2048 2
  bcast_S1024_S1x1x1024_2 : S1024.BroadcastsInDim S1x1x1024 (![2] : Fin 1 → Fin S1x1x1024.rank)
  bcast_S1x1x1024_S512x64x1024_0_1_2 : S1x1x1024.BroadcastsInDim S512x64x1024 (![0, 1, 2] : Fin 3 → Fin S512x64x1024.rank)
  bcast_S_S512x64x1024 : S_.BroadcastsInDim S512x64x1024 (![] : Fin 0 → Fin S512x64x1024.rank)
  shapeCasts_S512x64x1_S512x64 : S512x64x1.ShapeCasts S512x64
  bcast_S_S512x64 : S_.BroadcastsInDim S512x64 (![] : Fin 0 → Fin S512x64.rank)
  transposes_S512x64_S64x512_1_0 : S512x64.Transposes [1, 0] S64x512
  bcast_S_S64x512 : S_.BroadcastsInDim S64x512 (![] : Fin 0 → Fin S64x512.rank)
  reducesTo_S64x512_S64_d1 : S64x512.ReducesTo [1] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  bcast_S64x1_S64x512_0_1 : S64x1.BroadcastsInDim S64x512 (![0, 1] : Fin 2 → Fin S64x512.rank)
  bcast_S64x512_S64x1x512_0_2 : S64x512.BroadcastsInDim S64x1x512 (![0, 2] : Fin 2 → Fin S64x1x512.rank)
  dot_S512x64x2048_S1024x2048_S512x64x1024_2_1_01_0_n_n_wf : DotDims.WF S512x64x2048 S1024x2048 S512x64x1024 [2] [1] [0, 1] [0] [] []
  dot_S512x64x1024_S1x1024_S512x64x1_2_1_01_0_n_n_wf : DotDims.WF S512x64x1024 S1x1024 S512x64x1 [2] [1] [0, 1] [0] [] []

variable [Facts₀]

def dot_S512x64x2048_S1024x2048_S512x64x1024_2_1_01_0_n_n : DotDims S512x64x2048 S1024x2048 S512x64x1024 where
  lhsContracting := [2]
  rhsContracting := [1]
  lhsNonContracting := [0, 1]
  rhsNonContracting := [0]
  lhsBatch := []
  rhsBatch := []
  wf := dot_S512x64x2048_S1024x2048_S512x64x1024_2_1_01_0_n_n_wf
def dot_S512x64x1024_S1x1024_S512x64x1_2_1_01_0_n_n : DotDims S512x64x1024 S1x1024 S512x64x1 where
  lhsContracting := [2]
  rhsContracting := [1]
  lhsNonContracting := [0, 1]
  rhsNonContracting := [0]
  lhsBatch := []
  rhsBatch := []
  wf := dot_S512x64x1024_S1x1024_S512x64x1_2_1_01_0_n_n_wf

class Facts : Prop extends Facts₀ where

variable [Facts]
-- ==== Proof.KernelRun.lean ====
/-
  The idealized program's run with its result named.

  The program is five stretches: host operations, the energy region (16 grid points), one host operation, the
  softmax region (one point), one host operation. The buffer contents at each boundary are a fold from the launch
  memory: a host stretch applies its operations, a region leaves its arrays at what its write-backs give and every
  other buffer as it found it. Every weakly fair execution ends with EVERY unscoped buffer at the last boundary's
  contents; read at the result buffer this names the result, and read at the argument buffers it gives the frame.
-/
import proofs.«179689_j68616397521505_2_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's
    contents and the seven argument arrays as launched. -/
theorem run : θ_run defs (onTc (τ := τ) (main (F := F))) ⟨m, fun _ => 0, ρ⟩ (fun r => ∀ c : Dev nD,
      r.2.mem ((c.tc : Thread nD τ).loc main_v16) = W5 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v16 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

end Cert.KernelIdeal.WholeRun

end
-- ==== Proof.Spec.lean ====
/-
  The attention scores as one function of the argument arrays, index by index, on the extended reals.

  With S = 512 positions, B = 64 batch rows and H = 1024 features, the seven arrays are
  hidden [1,B,H], encoder outputs [S,B,H], the additive term pe [B,S], the boolean mask [B,S],
  the first layer's weight Wa [H,2H] and bias ba [H], and the scoring row Ws [1,H].

    hiddenTerm b h = (∑ f, hidden(0,b,f) · Wa(h,f)) + ba(h)                    (columns 0 … H-1 of Wa)
    energy s b h   = max ((∑ f, enc(s,b,f) · Wa(h,H+f)) + hiddenTerm b h) 0     (columns H … 2H-1 of Wa)
    logit s b      = scale · ∑ h, energy s b h · Ws(0,h)
    masked b s     = fill where the mask is set, else logit s b + pe(b,s)
    softmax x b s  = exp (x b s − max_s' x b s') / ∑ s', exp (x b s' − max_s'' x b s'')
    attn (b,0,s)   = softmax masked b s

  The four float words (zero, the scale, the fill, minus infinity) stay as the words both programs print; none is
  evaluated except where a zero is added.
-/
import Idealize.ShloMosaic.PureOps.Ideal.Laws
import Idealize.ShloMosaic.Lib.ValueIdx

noncomputable section

namespace Cert.Attn

open Idealize.ShloMosaic Idealize.ShloMosaic.ValueIdx

/-- The f32 words of the computation, as extended reals. -/
abbrev zeroW : EReal := Ideal.ofBits .f32 0x00000000#32
abbrev scaleW : EReal := Ideal.ofBits .f32 0x3E47A05B#32
abbrev fillW : EReal := Ideal.ofBits .f32 0xD368D4A5#32
abbrev negInfW : EReal := Ideal.ofBits .f32 0xFF800000#32

/-- Column `f` of the first half of the 2H = 2048 columns, and of the second half. -/
def lo (f : Fin 1024) : Fin 2048 := ⟨f.val, by have := f.isLt; omega⟩
def hi (f : Fin 1024) : Fin 2048 := ⟨1024 + f.val, by have := f.isLt; omega⟩

/-- A sum over the 2048 columns is the sum over the first half plus the sum over the second half. -/
theorem sum_halves {M : Type} [AddCommMonoid M] (g : Fin 2048 → M) :
    ∑ k : Fin 2048, g k = ∑ f : Fin 1024, g (lo f) + ∑ f : Fin 1024, g (hi f) :=
  Fin.sum_univ_add (a := 1024) (b := 1024) g

variable (hid : (⟨3, ![1, 64, 1024]⟩ : Shape).Idx → EReal) (enc : (⟨3, ![512, 64, 1024]⟩ : Shape).Idx → EReal)
  (pe : (⟨2, ![64, 512]⟩ : Shape).Idx → EReal) (msk : (⟨2, ![64, 512]⟩ : Shape).Idx → BitVec 1)
  (Wa : (⟨2, ![1024, 2048]⟩ : Shape).Idx → EReal) (ba : (⟨1, ![1024]⟩ : Shape).Idx → EReal)
  (Ws : (⟨2, ![1, 1024]⟩ : Shape).Idx → EReal)

/-- The hidden state's share of the first layer, with the bias: it does not depend on the position. -/
def hiddenTerm (b : Fin 64) (h : Fin 1024) : EReal :=
  (∑ f : Fin 1024, hid (ix3 (0 : Fin 1) b f) * Wa (ix2 h (lo f))) + ba (ix1 h)

/-- The first layer after the rectifier. -/
def energy (s : Fin 512) (b : Fin 64) (h : Fin 1024) : EReal :=
  max ((∑ f : Fin 1024, enc (ix3 s b f) * Wa (ix2 h (hi f))) + hiddenTerm hid Wa ba b h) zeroW

/-- The scaled score of position `s` in batch row `b`. -/
def logit (s : Fin 512) (b : Fin 64) : EReal :=
  scaleW * ∑ h : Fin 1024, energy hid enc Wa ba s b h * Ws (ix2 (0 : Fin 1) h)

/-- A score table with the additive term, the masked entries at the fill value. -/
def masked (L : Fin 512 → Fin 64 → EReal) (b : Fin 64) (s : Fin 512) : EReal :=
  Scalar.select (msk (ix2 b s)) fillW (L s b + pe (ix2 b s))

/-- The largest entry of row `b`, folded from minus infinity. -/
def rowMax (x : Fin 64 → Fin 512 → EReal) (b : Fin 64) : EReal :=
  (Finset.univ : Finset (Fin 512)).fold max negInfW (x b)

/-- The softmax along a row, computed after subtracting the row's maximum. -/
def softmax (x : Fin 64 → Fin 512 → EReal) (b : Fin 64) (s : Fin 512) : EReal :=
  Ideal.div (Ideal.exp (x b s - rowMax x b)) (∑ s' : Fin 512, Ideal.exp (x b s' - rowMax x b))

/-- The result array [B, 1, S]. -/
def attn : (⟨3, ![64, 1, 512]⟩ : Shape).Idx → EReal := fun i =>
  softmax (masked pe msk (logit hid enc Wa ba Ws)) (i 0 : Fin 64) (i 2 : Fin 512)

end Cert.Attn

end
-- ==== Proof.EnergyBody.lean ====
/-
  The energy region's body at an index.

  On a block of 2048 = 32 · 64 rows (32 positions, each with its 64 batch rows) the body multiplies the rows by
  the [1024, 1024] weight block, regroups the 2048 rows as [32, 64], adds the [64, 1024] hidden term to every
  position, rectifies, multiplies by the [1024, 1] scoring column, scales, and regroups the 2048 scores as
  [32, 64]. Read at (r, q) — position r of the block, batch row q — the row of the 2048 is r·64 + q.
-/
import proofs.«179689_j68616397521505_2_alg».proof.Proof.Gen.KernelIdeal.Skeleton
import proofs.«179689_j68616397521505_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.EnergyBody

open Cert.KernelIdeal Cert.KernelIdeal.Gen Idealize.ShloMosaic Idealize.ShloMosaic.ValueIdx

/-- Row `r·64 + q` of a 2048-row block. -/
def row (r : Fin 32) (q : Fin 64) : Fin 2048 := ⟨r.val * 64 + q.val, by have := r.isLt; have := q.isLt; omega⟩

/-! ## The two products' operand indices -/

theorem dot_S2048x1024_S1024x1024_S2048x1024_1_0_0_1_n_n_lhs0 (i : S2048x1024.Idx) (q : dot_S2048x1024_S1024x1024_S2048x1024_1_0_0_1_n_n.contr.Idx) : (dot_S2048x1024_S1024x1024_S2048x1024_1_0_0_1_n_n.lhsIdx i q 0).val = (i 0).val := by
  unfold DotDims.lhsIdx
  rw [dif_neg (show ¬(0 : Fin S2048x1024.rank) ∈ dot_S2048x1024_S1024x1024_S2048x1024_1_0_0_1_n_n.lhsBatch by decide), dif_pos (show (0 : Fin S2048x1024.rank) ∈ dot_S2048x1024_S1024x1024_S2048x1024_1_0_0_1_n_n.lhsNonContracting by decide)]
  rfl
theorem dot_S2048x1024_S1024x1024_S2048x1024_1_0_0_1_n_n_lhs1 (i : S2048x1024.Idx) (q : dot_S2048x1024_S1024x1024_S2048x1024_1_0_0_1_n_n.contr.Idx) : (dot_S2048x1024_S1024x1024_S2048x1024_1_0_0_1_n_n.lhsIdx i q 1).val = (q ⟨0, by decide⟩).val :=
  dot_S2048x1024_S1024x1024_S2048x1024_1_0_0_1_n_n.lhsIdx_val_of_single rfl i q
theorem dot_S2048x1024_S1024x1024_S2048x1024_1_0_0_1_n_n_rhs0 (i : S2048x1024.Idx) (q : dot_S2048x1024_S1024x1024_S2048x1024_1_0_0_1_n_n.contr.Idx) : (dot_S2048x1024_S1024x1024_S2048x1024_1_0_0_1_n_n.rhsIdx i q 0).val = (q ⟨0, by decide⟩).val :=
  dot_S2048x1024_S1024x1024_S2048x1024_1_0_0_1_n_n.rhsIdx_val_of_single rfl i q
theorem dot_S2048x1024_S1024x1024_S2048x1024_1_0_0_1_n_n_rhs1 (i : S2048x1024.Idx) (q : dot_S2048x1024_S1024x1024_S2048x1024_1_0_0_1_n_n.contr.Idx) : (dot_S2048x1024_S1024x1024_S2048x1024_1_0_0_1_n_n.rhsIdx i q 1).val = (i 1).val := by
  unfold DotDims.rhsIdx
  rw [dif_neg (show ¬(1 : Fin S1024x1024.rank) ∈ dot_S2048x1024_S1024x1024_S2048x1024_1_0_0_1_n_n.rhsBatch by decide), dif_pos (show (1 : Fin S1024x1024.rank) ∈ dot_S2048x1024_S1024x1024_S2048x1024_1_0_0_1_n_n.rhsNonContracting by decide)]
  rfl
/-- The contraction's operand indices at output (n, j) and contraction coordinate k are (n, k) and (k, j). -/
theorem dot_S2048x1024_S1024x1024_S2048x1024_1_0_0_1_n_n_lidx (n : Fin 2048) (j : Fin 1024) (k : Fin 1024) :
    dot_S2048x1024_S1024x1024_S2048x1024_1_0_0_1_n_n.lhsIdx (ix2 n j) ((contrEquiv1 dot_S2048x1024_S1024x1024_S2048x1024_1_0_0_1_n_n 1024 rfl rfl).symm k) = ix2 n k :=
  funext fun a => Fin.ext (by
    have hk := contrEquiv1_symm_val dot_S2048x1024_S1024x1024_S2048x1024_1_0_0_1_n_n 1024 rfl rfl k
    match a with
    | ⟨0, _⟩ => exact dot_S2048x1024_S1024x1024_S2048x1024_1_0_0_1_n_n_lhs0 _ _
    | ⟨1, _⟩ => exact (dot_S2048x1024_S1024x1024_S2048x1024_1_0_0_1_n_n_lhs1 _ _).trans hk)
theorem dot_S2048x1024_S1024x1024_S2048x1024_1_0_0_1_n_n_ridx (n : Fin 2048) (j : Fin 1024) (k : Fin 1024) :
    dot_S2048x1024_S1024x1024_S2048x1024_1_0_0_1_n_n.rhsIdx (ix2 n j) ((contrEquiv1 dot_S2048x1024_S1024x1024_S2048x1024_1_0_0_1_n_n 1024 rfl rfl).symm k) = ix2 k j :=
  funext fun a => Fin.ext (by
    have hk := contrEquiv1_symm_val dot_S2048x1024_S1024x1024_S2048x1024_1_0_0_1_n_n 1024 rfl rfl k
    match a with
    | ⟨0, _⟩ => exact (dot_S2048x1024_S1024x1024_S2048x1024_1_0_0_1_n_n_rhs0 _ _).trans hk
    | ⟨1, _⟩ => exact dot_S2048x1024_S1024x1024_S2048x1024_1_0_0_1_n_n_rhs1 _ _)

theorem dot_S2048x1024_S1024x1_S2048x1_1_0_0_1_n_n_lhs0 (i : S2048x1.Idx) (q : dot_S2048x1024_S1024x1_S2048x1_1_0_0_1_n_n.contr.Idx) : (dot_S2048x1024_S1024x1_S2048x1_1_0_0_1_n_n.lhsIdx i q 0).val = (i 0).val := by
  unfold DotDims.lhsIdx
  rw [dif_neg (show ¬(0 : Fin S2048x1024.rank) ∈ dot_S2048x1024_S1024x1_S2048x1_1_0_0_1_n_n.lhsBatch by decide), dif_pos (show (0 : Fin S2048x1024.rank) ∈ dot_S2048x1024_S1024x1_S2048x1_1_0_0_1_n_n.lhsNonContracting by decide)]
  rfl
theorem dot_S2048x1024_S1024x1_S2048x1_1_0_0_1_n_n_lhs1 (i : S2048x1.Idx) (q : dot_S2048x1024_S1024x1_S2048x1_1_0_0_1_n_n.contr.Idx) : (dot_S2048x1024_S1024x1_S2048x1_1_0_0_1_n_n.lhsIdx i q 1).val = (q ⟨0, by decide⟩).val :=
  dot_S2048x1024_S1024x1_S2048x1_1_0_0_1_n_n.lhsIdx_val_of_single rfl i q
theorem dot_S2048x1024_S1024x1_S2048x1_1_0_0_1_n_n_rhs0 (i : S2048x1.Idx) (q : dot_S2048x1024_S1024x1_S2048x1_1_0_0_1_n_n.contr.Idx) : (dot_S2048x1024_S1024x1_S2048x1_1_0_0_1_n_n.rhsIdx i q 0).val = (q ⟨0, by decide⟩).val :=
  dot_S2048x1024_S1024x1_S2048x1_1_0_0_1_n_n.rhsIdx_val_of_single rfl i q
theorem dot_S2048x1024_S1024x1_S2048x1_1_0_0_1_n_n_rhs1 (i : S2048x1.Idx) (q : dot_S2048x1024_S1024x1_S2048x1_1_0_0_1_n_n.contr.Idx) : (dot_S2048x1024_S1024x1_S2048x1_1_0_0_1_n_n.rhsIdx i q 1).val = (i 1).val := by
  unfold DotDims.rhsIdx
  rw [dif_neg (show ¬(1 : Fin S1024x1.rank) ∈ dot_S2048x1024_S1024x1_S2048x1_1_0_0_1_n_n.rhsBatch by decide), dif_pos (show (1 : Fin S1024x1.rank) ∈ dot_S2048x1024_S1024x1_S2048x1_1_0_0_1_n_n.rhsNonContracting by decide)]
  rfl
/-- The contraction's operand indices at output (n, j) and contraction coordinate k are (n, k) and (k, j). -/
theorem dot_S2048x1024_S1024x1_S2048x1_1_0_0_1_n_n_lidx (n : Fin 2048) (j : Fin 1) (k : Fin 1024) :
    dot_S2048x1024_S1024x1_S2048x1_1_0_0_1_n_n.lhsIdx (ix2 n j) ((contrEquiv1 dot_S2048x1024_S1024x1_S2048x1_1_0_0_1_n_n 1024 rfl rfl).symm k) = ix2 n k :=
  funext fun a => Fin.ext (by
    have hk := contrEquiv1_symm_val dot_S2048x1024_S1024x1_S2048x1_1_0_0_1_n_n 1024 rfl rfl k
    match a with
    | ⟨0, _⟩ => exact dot_S2048x1024_S1024x1_S2048x1_1_0_0_1_n_n_lhs0 _ _
    | ⟨1, _⟩ => exact (dot_S2048x1024_S1024x1_S2048x1_1_0_0_1_n_n_lhs1 _ _).trans hk)
theorem dot_S2048x1024_S1024x1_S2048x1_1_0_0_1_n_n_ridx (n : Fin 2048) (j : Fin 1) (k : Fin 1024) :
    dot_S2048x1024_S1024x1_S2048x1_1_0_0_1_n_n.rhsIdx (ix2 n j) ((contrEquiv1 dot_S2048x1024_S1024x1_S2048x1_1_0_0_1_n_n 1024 rfl rfl).symm k) = ix2 k j :=
  funext fun a => Fin.ext (by
    have hk := contrEquiv1_symm_val dot_S2048x1024_S1024x1_S2048x1_1_0_0_1_n_n 1024 rfl rfl k
    match a with
    | ⟨0, _⟩ => exact (dot_S2048x1024_S1024x1_S2048x1_1_0_0_1_n_n_rhs0 _ _).trans hk
    | ⟨1, _⟩ => exact dot_S2048x1024_S1024x1_S2048x1_1_0_0_1_n_n_rhs1 _ _)

/-- The product of a 2048-row block with the weight block, into a zero accumulator, entry by entry. -/
theorem rows_times_weights (l : FVec Ideal S2048x1024 .bf16) (w : FVec Ideal S1024x1024 .bf16) (n : Fin 2048) (j : Fin 1024) :
    matmul dot_S2048x1024_S1024x1024_S2048x1024_1_0_0_1_n_n none l w (constant S2048x1024 .f32 0x00000000#32) (ix2 n j)
      = ∑ k : Fin 1024, l (ix2 n k) * w (ix2 k j) := by
  show FloatOps.matmul dot_S2048x1024_S1024x1024_S2048x1024_1_0_0_1_n_n none l w (constant S2048x1024 .f32 0x00000000#32) (ix2 n j) = _
  rw [Ideal.matmul_constant_zero_apply, ← Equiv.sum_comp (contrEquiv1 dot_S2048x1024_S1024x1024_S2048x1024_1_0_0_1_n_n 1024 rfl rfl).symm]
  refine Finset.sum_congr rfl fun k _ => ?_
  rw [dot_S2048x1024_S1024x1024_S2048x1024_1_0_0_1_n_n_lidx, dot_S2048x1024_S1024x1024_S2048x1024_1_0_0_1_n_n_ridx]

/-- The product of a 2048-row block with the scoring column. -/
theorem rows_times_column (l : FVec Ideal S2048x1024 .bf16) (w : FVec Ideal S1024x1 .bf16) (n : Fin 2048) (j : Fin 1) :
    matmul dot_S2048x1024_S1024x1_S2048x1_1_0_0_1_n_n none l w (constant S2048x1 .f32 0x00000000#32) (ix2 n j)
      = ∑ k : Fin 1024, l (ix2 n k) * w (ix2 k j) := by
  show FloatOps.matmul dot_S2048x1024_S1024x1_S2048x1_1_0_0_1_n_n none l w (constant S2048x1 .f32 0x00000000#32) (ix2 n j) = _
  rw [Ideal.matmul_constant_zero_apply, ← Equiv.sum_comp (contrEquiv1 dot_S2048x1024_S1024x1_S2048x1_1_0_0_1_n_n 1024 rfl rfl).symm]
  refine Finset.sum_congr rfl fun k _ => ?_
  rw [dot_S2048x1024_S1024x1_S2048x1_1_0_0_1_n_n_lidx, dot_S2048x1024_S1024x1_S2048x1_1_0_0_1_n_n_ridx]

/-! ## The body -/

/-- The rectified first layer on the block's 2048 rows. -/
def hiddenLayer (x0 : FVec Ideal S2048x1024 .f32) (x1 : FVec Ideal S1024x1024 .bf16) (x2 : FVec Ideal S64x1024 .f32) : FVec Ideal S2048x1024 .bf16 :=
  truncf .bf16 (shapeCast S2048x1024
    (maximumf
      (addf
        (shapeCast S32x64x1024 (matmul dot_S2048x1024_S1024x1024_S2048x1024_1_0_0_1_n_n none
          (truncf .bf16 (shapeCast S2048x1024 x0 shapeCasts_S2048x1024_S2048x1024) bitsLt_bf16_f32)
          (shapeCast S1024x1024 x1 shapeCasts_S1024x1024_S1024x1024) (constant S2048x1024 .f32 0x00000000#32)) shapeCasts_S2048x1024_S32x64x1024)
        (broadcastTo S32x64x1024 (shapeCast S1x64x1024 (shapeCast S64x1024 x2 shapeCasts_S64x1024_S64x1024) shapeCasts_S64x1024_S1x64x1024) broadcasts_S1x64x1024_S32x64x1024))
      (broadcast S32x64x1024 (Scalar.ofBits .f32 0x00000000#32)))
    shapeCasts_S32x64x1024_S2048x1024) bitsLt_bf16_f32

/-- The body's stored value over the rectified first layer. -/
theorem payload_eq (x0 : FVec Ideal S2048x1024 .f32) (x1 : FVec Ideal S1024x1024 .bf16) (x2 : FVec Ideal S64x1024 .f32) (x3 : FVec Ideal S1024x1 .bf16) :
    k0_pay1 (F := Ideal) x0 x1 x2 x3
      = shapeCast S32x64 (mulf (broadcast S2048x1 (Scalar.ofBits .f32 0x3E47A05B#32))
          (matmul dot_S2048x1024_S1024x1_S2048x1_1_0_0_1_n_n none (hiddenLayer x0 x1 x2) (shapeCast S1024x1 x3 shapeCasts_S1024x1_S1024x1) (constant S2048x1 .f32 0x00000000#32)))
          shapeCasts_S2048x1_S32x64 := rfl

/-- The rectified first layer at row r·64 + q, feature h: the hidden term is read at batch row q whatever the position. -/
theorem hiddenLayer_apply (x0 : FVec Ideal S2048x1024 .f32) (x1 : FVec Ideal S1024x1024 .bf16) (x2 : FVec Ideal S64x1024 .f32)
    (r : Fin 32) (q : Fin 64) (h : Fin 1024) :
    hiddenLayer x0 x1 x2 (ix2 (row r q) h)
      = max ((∑ f : Fin 1024, x0 (ix2 (row r q) f) * x1 (ix2 f h)) + x2 (ix2 q h)) Cert.Attn.zeroW := by
  unfold hiddenLayer
  rw [shapeCast_self, shapeCast_self, shapeCast_self]
  refine (truncf_apply _ bitsLt_bf16_f32 _).trans ?_
  refine (shapeCast_apply _ shapeCasts_S32x64x1024_S2048x1024 (ix2 (row r q) h) (ix3 r q h) (by
    rw [Shape.rowMajor_val_three, Shape.rowMajor_val_two]; rfl)).trans ?_
  show max (shapeCast S32x64x1024 _ shapeCasts_S2048x1024_S32x64x1024 (ix3 r q h)
      + broadcastTo S32x64x1024 _ broadcasts_S1x64x1024_S32x64x1024 (ix3 r q h)) (Ideal.ofBits .f32 0x00000000#32) = _
  refine congrArg (fun z => max z Cert.Attn.zeroW) ?_
  refine congrArg₂ (· + ·) ?_ ?_
  · refine (shapeCast_apply _ shapeCasts_S2048x1024_S32x64x1024 (ix3 r q h) (ix2 (row r q) h) (by
      rw [Shape.rowMajor_val_three, Shape.rowMajor_val_two]; rfl)).trans ?_
    exact (rows_times_weights _ _ (row r q) h).trans (Finset.sum_congr rfl fun k _ => rfl)
  · refine (broadcastTo_apply _ broadcasts_S1x64x1024_S32x64x1024 (ix3 r q h) (ix3 (0 : Fin 1) q h) (fun a => by
      match a with
      | ⟨0, _⟩ => show 0 = if (1 : Nat) = 1 then 0 else r.val; rw [if_pos rfl]
      | ⟨1, _⟩ => show q.val = if (64 : Nat) = 1 then 0 else q.val; rw [if_neg (by decide)]
      | ⟨2, _⟩ => show h.val = if (1024 : Nat) = 1 then 0 else h.val; rw [if_neg (by decide)])).trans ?_
    exact shapeCast_ab_1ab_apply x2 shapeCasts_S64x1024_S1x64x1024 (0 : Fin 1) q h

/-- The body's stored value at (r, q). -/
theorem payload_apply (x0 : FVec Ideal S2048x1024 .f32) (x1 : FVec Ideal S1024x1024 .bf16) (x2 : FVec Ideal S64x1024 .f32) (x3 : FVec Ideal S1024x1 .bf16)
    (r : Fin 32) (q : Fin 64) :
    k0_pay1 (F := Ideal) x0 x1 x2 x3 (ix2 r q)
      = Cert.Attn.scaleW * ∑ h : Fin 1024,
          max ((∑ f : Fin 1024, x0 (ix2 (row r q) f) * x1 (ix2 f h)) + x2 (ix2 q h)) Cert.Attn.zeroW * x3 (ix2 h (0 : Fin 1)) := by
  rw [payload_eq, shapeCast_self]
  refine (shapeCast_apply _ shapeCasts_S2048x1_S32x64 (ix2 r q) (ix2 (row r q) (0 : Fin 1)) (by
    rw [Shape.rowMajor_val_two, Shape.rowMajor_val_two]
    show (r.val * 64 + q.val) * 1 + 0 = r.val * 64 + q.val
    omega)).trans ?_
  show Ideal.ofBits .f32 0x3E47A05B#32 * matmul dot_S2048x1024_S1024x1_S2048x1_1_0_0_1_n_n none (hiddenLayer x0 x1 x2) x3 (constant S2048x1 .f32 0x00000000#32) (ix2 (row r q) (0 : Fin 1)) = _
  rw [rows_times_column]
  refine congrArg (Cert.Attn.scaleW * ·) (Finset.sum_congr rfl fun h _ => ?_)
  rw [hiddenLayer_apply]

end Cert.KernelIdeal.EnergyBody

end
-- ==== Proof.EnergyRegion.lean ====
/-
  The energy region's output array.

  The grid has 16 points. At point t the output block is rows 32·t … 32·t + 31 of the [512, 64] score array, the
  first operand's block is rows 2048·t … 2048·t + 2047 of the [32768, 1024] row array, and the other three operands'
  blocks are their whole arrays. The 16 output blocks tile the score array, so after the region the array holds,
  at every (32·t + r, q), the body's value at (r, q) of point t's blocks.
-/
import proofs.«179689_j68616397521505_2_alg».proof.Proof.Gen.KernelIdeal.Frame
import proofs.«179689_j68616397521505_2_alg».proof.Proof.EnergyBody

set_option maxRecDepth 16384

noncomputable section

namespace Cert.KernelIdeal.EnergyRegion

open Cert.KernelIdeal Cert.KernelIdeal.Gen Cert.KernelIdeal.EnergyBody
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row operand and the output move with the point, the other three stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 16 := lt_of_lt_of_eq t.isLt N_0

/-- Row n of point t's block of the [32768, 1024] row array, and row r of its block of the [512, 64] score array. -/
def arow (t : Fin cfg0.N) (n : Fin 2048) : Fin 32768 := ⟨t.val * 2048 + n.val, by have := point_lt t; have := n.isLt; omega⟩
def srow (t : Fin cfg0.N) (r : Fin 32) : Fin 512 := ⟨t.val * 32 + r.val, by have := point_lt t; have := r.isLt; omega⟩

/-! ## The operands' blocks, read off the arrays the region finds -/

theorem blk0_apply (c : Dev nD) (A : S32768x1024.Idx → EReal) (hA : V c main_v12 = A) (t : Fin cfg0.N) (n : Fin 2048) (f : Fin 1024) :
    iblk0 V c 0 t (ix2 n f) = A (ix2 (arow t n) f) := by
  subst hA
  obtain ⟨e0, e1, -⟩ := idx_facts t
  show V c main_v12 (((cfg0.win 0).blk t).view.emb (ix2 n f)) = V c main_v12 (ix2 (arow t n) f)
  refine congrArg (V c main_v12) (funext fun a => Fin.ext ?_)
  match a with
  | ⟨0, _⟩ => show win0_0.index t (0 : Fin 2) * 2048 + 1 * n.val = t.val * 2048 + n.val; rw [e0]; omega
  | ⟨1, _⟩ => show win0_0.index t (1 : Fin 2) * 1024 + 1 * f.val = f.val; rw [e1]; omega

theorem blk1_apply (c : Dev nD) (A : S1024x1024.Idx → EReal) (hA : V c main_v9 = A) (t : Fin cfg0.N) (f : Fin 1024) (h : Fin 1024) :
    iblk0 V c 1 t (ix2 f h) = A (ix2 f h) := by
  subst hA
  obtain ⟨-, -, e0, e1, -⟩ := idx_facts t
  show V c main_v9 (((cfg0.win 1).blk t).view.emb (ix2 f h)) = V c main_v9 (ix2 f h)
  refine congrArg (V c main_v9) (funext fun a => Fin.ext ?_)
  match a with
  | ⟨0, _⟩ => show win0_1.index t (0 : Fin 2) * 1024 + 1 * f.val = f.val; rw [e0]; omega
  | ⟨1, _⟩ => show win0_1.index t (1 : Fin 2) * 1024 + 1 * h.val = h.val; rw [e1]; omega

theorem blk2_apply (c : Dev nD) (A : S64x1024.Idx → EReal) (hA : V c main_v8 = A) (t : Fin cfg0.N) (q : Fin 64) (h : Fin 1024) :
    iblk0 V c 2 t (ix2 q h) = A (ix2 q h) := by
  subst hA
  obtain ⟨-, -, -, -, e0, e1, -⟩ := idx_facts t
  show V c main_v8 (((cfg0.win 2).blk t).view.emb (ix2 q h)) = V c main_v8 (ix2 q h)
  refine congrArg (V c main_v8) (funext fun a => Fin.ext ?_)
  match a with
  | ⟨0, _⟩ => show win0_2.index t (0 : Fin 2) * 64 + 1 * q.val = q.val; rw [e0]; omega
  | ⟨1, _⟩ => show win0_2.index t (1 : Fin 2) * 1024 + 1 * h.val = h.val; rw [e1]; omega

theorem blk3_apply (c : Dev nD) (A : S1024x1.Idx → EReal) (hA : V c main_v11 = A) (t : Fin cfg0.N) (h : Fin 1024) (u : Fin 1) :
    iblk0 V c 3 t (ix2 h u) = A (ix2 h u) := by
  subst hA
  obtain ⟨-, -, -, -, -, -, e0, e1, -⟩ := idx_facts t
  show V c main_v11 (((cfg0.win 3).blk t).view.emb (ix2 h u)) = V c main_v11 (ix2 h u)
  refine congrArg (V c main_v11) (funext fun a => Fin.ext ?_)
  match a with
  | ⟨0, _⟩ => show win0_3.index t (0 : Fin 2) * 1024 + 1 * h.val = h.val; rw [e0]; omega
  | ⟨1, _⟩ => show win0_3.index t (1 : Fin 2) * 1 + 1 * u.val = u.val; rw [e1]; omega

/-! ## What each point writes back, and the array after the region -/

/-- An index of the score array is in point t's block iff each coordinate is in the block's range. -/
theorem mem_blk (t : Fin cfg0.N) (i : S512x64.Idx) :
    i ∈ ((cfg0.win 4).blk t).view.set ↔ ∀ a : Fin 2, win0_4.index t a * S32x64.size a ≤ (i a).val ∧ (i a).val < win0_4.index t a * S32x64.size a + S32x64.size a := by
  show i ∈ ((View.whole main_v13).slice (win0_4.rect t)).set ↔ _
  rw [View.set_slice_whole, Rect.mem_set_unit]
  exact Iff.rfl

section
variable (c : Dev nD) (A12 : S32768x1024.Idx → EReal) (A9 : S1024x1024.Idx → EReal) (A8 : S64x1024.Idx → EReal) (A11 : S1024x1.Idx → EReal)
  (h12 : V c main_v12 = A12) (h9 : V c main_v9 = A9) (h8 : V c main_v8 = A8) (h11 : V c main_v11 = A11)
  (L : S512x64.Idx → EReal)
  (hL : ∀ (t : Fin cfg0.N) (r : Fin 32) (q : Fin 64),
    Cert.Attn.scaleW * ∑ h : Fin 1024,
        max ((∑ f : Fin 1024, A12 (ix2 (arow t (row r q)) f) * A9 (ix2 f h)) + A8 (ix2 q h)) Cert.Attn.zeroW * A11 (ix2 h (0 : Fin 1))
      = L (ix2 (srow t r) q))
include h12 h9 h8 h11 hL

/-- Point t writes back block t of L. -/
theorem flushed_eq (t : Fin cfg0.N) :
    (dat0 V c).flushed 4 t = ((cfg0.win 4).blk t).view.read (Elt Ideal) L := by
  show (cfg0.win 4).cut (grid0.coords t) ((dat0 V c).after 4 t) = _
  rw [after0_4]
  unfold out0_4
  rw [View.canon_unit_zero hz]
  simp only [View.ld_unit_zero (S := S2048x1024) hz, View.ld_unit_zero (S := S1024x1024) hz, View.ld_unit_zero (S := S64x1024) hz,
    View.ld_unit_zero (S := S1024x1) hz]
  funext y
  obtain ⟨r, q, rfl⟩ : ∃ (r : Fin 32) (q : Fin 64), y = ix2 r q := ⟨y 0, y 1, eq_ix2 y⟩
  refine (payload_apply (iblk0 V c 0 t) (iblk0 V c 1 t) (iblk0 V c 2 t) (iblk0 V c 3 t) r q).trans ?_
  simp only [blk0_apply V c A12 h12, blk1_apply V c A9 h9, blk2_apply V c A8 h8, blk3_apply V c A11 h11]
  refine (hL t r q).trans ?_
  obtain ⟨-, -, -, -, -, -, -, -, e0, e1⟩ := idx_facts t
  show L (ix2 (srow t r) q) = L (((cfg0.win 4).blk t).view.emb (ix2 r q))
  refine congrArg L (funext fun a => Fin.ext ?_)
  match a with
  | ⟨0, _⟩ => show t.val * 32 + r.val = win0_4.index t (0 : Fin 2) * 32 + 1 * r.val; rw [e0]; omega
  | ⟨1, _⟩ => show q.val = win0_4.index t (1 : Fin 2) * 64 + 1 * q.val; rw [e1]; omega

/-- The score array after the region is L: row i₀ is in block i₀ / 32. -/
theorem array_eq : (dat0 V c).arrAt 4 cfg0.N = L :=
  (dat0 V c).arrAt_eq_of_cover 4 L (fun t _ => flushed_eq V c A12 A9 A8 A11 h12 h9 h8 h11 L hL t) fun i => by
    have h0 : (i 0).val < 512 := (i 0).isLt
    have h1 : (i 1).val < 64 := (i 1).isLt
    let t : Fin cfg0.N := ⟨(i 0).val / 32, by rw [show cfg0.N = 16 from N_0]; omega⟩
    obtain ⟨-, -, -, -, -, -, -, -, e0, e1⟩ := idx_facts t
    refine ⟨t, flush0_4 t, ?_⟩
    rw [mem_blk]
    intro a
    match a with
    | ⟨0, _⟩ => show win0_4.index t (0 : Fin 2) * 32 ≤ (i 0).val ∧ (i 0).val < win0_4.index t (0 : Fin 2) * 32 + 32
                rw [e0]; show (i 0).val / 32 * 32 ≤ (i 0).val ∧ (i 0).val < (i 0).val / 32 * 32 + 32; omega
    | ⟨1, _⟩ => show win0_4.index t (1 : Fin 2) * 64 ≤ (i 1).val ∧ (i 1).val < win0_4.index t (1 : Fin 2) * 64 + 64
                rw [e1]; omega

end

end Cert.KernelIdeal.EnergyRegion

end
-- ==== Proof.LibColumnLayout.lean ====
/-
  A vector kept as a one-column matrix, and that column repeated along the rows' other axis.

  The library reads a leading unit axis added to a vector ([a] as [1, a]) and one row broadcast down many
  ([1, b] to [a, b]). A reduction along the last axis that keeps its dimension produces the other arrangement:
  the [a] results become the single column of an [a, 1] matrix, and that column is then repeated b times to [a, b].
  Both read the vector at the row's coordinate.
-/
import Idealize.ShloMosaic.Lib.Pipeline.Value
import Idealize.ShloMosaic.Lib.ValueIdx
import Idealize.ShloMosaic.Lib.ValueLayout

namespace Idealize.ShloMosaic.ColumnLayout

open Idealize.ShloMosaic Idealize.ShloMosaic.ValueIdx

variable {α : Type}

/-- An `[a]` vector cast to the one column of an `[a, 1]` matrix reads, at `(i, u)`, the vector at `i`,
    whatever the unit coordinate `u`: the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` matrix broadcast to `[a, b]` reads, at `(p, c)`, its one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector kept as a column and repeated along the rows reads the vector at the row. -/
theorem column_broadcast_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- The row counterpart from the library's two lemmas: a vector given a leading unit axis and broadcast down the rows
    reads the vector at the column. -/
theorem row_broadcast_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

end Idealize.ShloMosaic.ColumnLayout
-- ==== Proof.SoftmaxBody.lean ====
/-
  The softmax region's body at an index.

  The body transposes the [S, B] score block to [B, S], adds the additive term, puts the fill value where the
  integer mask is not zero, and normalises each row: the row's maximum (folded from minus infinity) is kept as a
  column and repeated along the row, subtracted, the exponential taken, and the row's sum of exponentials —
  again a column repeated along the row — divides it. Read at (b, s) this is the softmax of the masked scores'
  row b at s.
-/
import proofs.«179689_j68616397521505_2_alg».proof.Proof.Gen.KernelIdeal.Skeleton
import proofs.«179689_j68616397521505_2_alg».proof.Proof.Spec
import proofs.«179689_j68616397521505_2_alg».proof.Proof.LibColumnLayout
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.SoftmaxBody

open Cert.KernelIdeal Cert.KernelIdeal.Gen Idealize.ShloMosaic Idealize.ShloMosaic.ValueIdx Idealize.ShloMosaic.ColumnLayout

/-- The masked scores the body normalises: the score block transposed, plus the additive term, the fill value
    where the mask word is not zero. -/
def scores (y0 : Vec Ideal S512x64 .f32) (y1 : Vec Ideal S64x512 .f32) (y2 : Vec Ideal S64x512 .i32) : FVec Ideal S64x512 .f32 :=
  select (cmpi .ne (shapeCast S64x512 y2 shapeCasts_S64x512_S64x512) (broadcast S64x512 0#32))
    (broadcast S64x512 (Scalar.ofBits .f32 0xD368D4A5#32))
    (addf (transpose S64x512 [1, 0] (shapeCast S512x64 y0 shapeCasts_S512x64_S512x64) transposes_S512x64_p1_0_S64x512) y1)

/-- The exponential of each entry less its row's maximum. -/
def expShift (x : FVec Ideal S64x512 .f32) : FVec Ideal S64x512 .f32 :=
  exp (subf x (broadcastTo S64x512 (shapeCast S64x1 (multiReduction .maximumf [1] S64 x 0xFF800000#32 reduces_S64x512_S64 (.inl rfl) rfl) shapeCasts_S64_S64x1) broadcasts_S64x1_S64x512))

/-- Each row divided by its sum. -/
def normalize (x : FVec Ideal S64x512 .f32) : FVec Ideal S64x512 .f32 :=
  divf (expShift x) (broadcastTo S64x512 (shapeCast S64x1 (multiReduction .add [1] S64 (expShift x) 0x00000000#32 reduces_S64x512_S64 (.inl rfl) rfl) shapeCasts_S64_S64x1) broadcasts_S64x1_S64x512)

/-- The body's stored value is the normalised masked scores. -/
theorem payload_eq (y0 : Vec Ideal S512x64 .f32) (y1 : Vec Ideal S64x512 .f32) (y2 : Vec Ideal S64x512 .i32) :
    k1_pay1 (F := Ideal) y0 y1 y2 = normalize (scores y0 y1 y2) := rfl

/-- The masked scores at (b, s): the score block is read transposed, at (s, b). -/
theorem scores_apply (y0 : Vec Ideal S512x64 .f32) (y1 : Vec Ideal S64x512 .f32) (y2 : Vec Ideal S64x512 .i32) (b : Fin 64) (s : Fin 512) :
    scores y0 y1 y2 (ix2 b s)
      = Scalar.select (IntOp.cmpi .ne (y2 (ix2 b s)) 0#32) Cert.Attn.fillW (y0 (ix2 s b) + y1 (ix2 b s)) := by
  unfold scores
  rw [shapeCast_self, shapeCast_self]
  show Scalar.select (IntOp.cmpi .ne (y2 (ix2 b s)) 0#32) _ (transpose S64x512 [1, 0] y0 transposes_S512x64_p1_0_S64x512 (ix2 b s) + y1 (ix2 b s)) = _
  rw [transpose_ix2_apply]
  rfl

/-- A row's maximum, folded from minus infinity over the row's 512 entries. -/
theorem rowMax_apply (x : FVec Ideal S64x512 .f32) (b : Fin 64) :
    multiReduction .maximumf [1] S64 x 0xFF800000#32 reduces_S64x512_S64 (.inl rfl) rfl (ix1 b)
      = Cert.Attn.rowMax (fun b s => x (ix2 b s)) b := by
  refine (Ideal.multiReduction_maximumf_single x 0xFF800000#32 reduces_S64x512_S64 (.inl rfl) rfl (ix1 b)).trans ?_
  unfold Cert.Attn.rowMax
  have e : (x ∘ reduces_S64x512_S64.lift (ix1 b)) = fun s : Fin 512 => x (ix2 b s) :=
    funext fun k => congrArg x (funext fun a => Fin.ext (by match a with | ⟨0, _⟩ => rfl | ⟨1, _⟩ => rfl))
  exact congrArg (fun f => Finset.fold max (Ideal.ofBits .f32 0xFF800000#32) f Finset.univ) e

theorem expShift_apply (x : FVec Ideal S64x512 .f32) (b : Fin 64) (s : Fin 512) :
    expShift x (ix2 b s) = Ideal.exp (x (ix2 b s) - Cert.Attn.rowMax (fun b s => x (ix2 b s)) b) := by
  unfold expShift
  show Ideal.exp (x (ix2 b s) - broadcastTo S64x512 (shapeCast S64x1 _ shapeCasts_S64_S64x1) broadcasts_S64x1_S64x512 (ix2 b s)) = _
  rw [column_broadcast_apply, rowMax_apply]

/-- The body's result at (b, s) is the softmax of row b at s. -/
theorem normalize_apply (x : FVec Ideal S64x512 .f32) (b : Fin 64) (s : Fin 512) :
    normalize x (ix2 b s) = Cert.Attn.softmax (fun b s => x (ix2 b s)) b s := by
  unfold normalize Cert.Attn.softmax
  show Ideal.div (expShift x (ix2 b s)) (broadcastTo S64x512 (shapeCast S64x1 _ shapeCasts_S64_S64x1) broadcasts_S64x1_S64x512 (ix2 b s)) = _
  rw [column_broadcast_apply, expShift_apply]
  refine congrArg (Ideal.div _) ?_
  refine (Ideal.multiReduction_add_single (expShift x) 0x00000000#32 reduces_S64x512_S64 (.inl rfl) rfl (ix1 b)).trans ?_
  refine Finset.sum_congr rfl fun k _ => ?_
  exact (congrArg (expShift x) (funext fun a => Fin.ext (by match a with | ⟨0, _⟩ => rfl | ⟨1, _⟩ => rfl))).trans (expShift_apply x b k)

end Cert.KernelIdeal.SoftmaxBody

end
-- ==== Proof.SoftmaxRegion.lean ====
/-
  The softmax region's output array.

  The grid has one point, and every window's block is its whole array: the [512, 64] scores, the [64, 512]
  additive term, the [64, 512] integer mask, and the [64, 512] result. After the region the result array holds
  the body's value of the three arrays as the region finds them.
-/
import proofs.«179689_j68616397521505_2_alg».proof.Proof.Gen.KernelIdeal.Frame
import proofs.«179689_j68616397521505_2_alg».proof.Proof.SoftmaxBody

set_option maxRecDepth 16384

noncomputable section

namespace Cert.KernelIdeal.SoftmaxRegion

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Every window's block index is (0, 0) at the one point. -/
theorem idx_facts : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- Each operand's block is its whole array. -/
theorem blk0_eq (c : Dev nD) (t : Fin cfg1.N) : iblk1 V c 0 t = (V c main_v13 : S512x64.Idx → Elt Ideal .f32) := by
  obtain ⟨e0, e1, -⟩ := idx_facts t
  funext y
  show V c main_v13 (((cfg1.win 0).blk t).view.emb y) = V c main_v13 y
  refine congrArg (V c main_v13) (funext fun a => Fin.ext ?_)
  match a with
  | ⟨0, _⟩ => show win1_0.index t (0 : Fin 2) * 512 + 1 * (y 0).val = (y 0).val; rw [e0]; omega
  | ⟨1, _⟩ => show win1_0.index t (1 : Fin 2) * 64 + 1 * (y 1).val = (y 1).val; rw [e1]; omega

theorem blk1_eq (c : Dev nD) (t : Fin cfg1.N) : iblk1 V c 1 t = (V c main_arg2 : S64x512.Idx → Elt Ideal .f32) := by
  obtain ⟨-, -, e0, e1, -⟩ := idx_facts t
  funext y
  show V c main_arg2 (((cfg1.win 1).blk t).view.emb y) = V c main_arg2 y
  refine congrArg (V c main_arg2) (funext fun a => Fin.ext ?_)
  match a with
  | ⟨0, _⟩ => show win1_1.index t (0 : Fin 2) * 64 + 1 * (y 0).val = (y 0).val; rw [e0]; omega
  | ⟨1, _⟩ => show win1_1.index t (1 : Fin 2) * 512 + 1 * (y 1).val = (y 1).val; rw [e1]; omega

theorem blk2_eq (c : Dev nD) (t : Fin cfg1.N) : iblk1 V c 2 t = (V c main_v14 : S64x512.Idx → Elt Ideal .i32) := by
  obtain ⟨-, -, -, -, e0, e1, -⟩ := idx_facts t
  funext y
  show V c main_v14 (((cfg1.win 2).blk t).view.emb y) = V c main_v14 y
  refine congrArg (V c main_v14) (funext fun a => Fin.ext ?_)
  match a with
  | ⟨0, _⟩ => show win1_2.index t (0 : Fin 2) * 64 + 1 * (y 0).val = (y 0).val; rw [e0]; omega
  | ⟨1, _⟩ => show win1_2.index t (1 : Fin 2) * 512 + 1 * (y 1).val = (y 1).val; rw [e1]; omega

/-- The region's result: the body's value of the three arrays. -/
abbrev result (c : Dev nD) : S64x512.Idx → Elt Ideal .f32 :=
  k1_pay1 (F := Ideal) (V c main_v13) (V c main_arg2) (V c main_v14)

/-- The one point writes back the whole result. -/
theorem flushed_eq (c : Dev nD) (t : Fin cfg1.N) :
    (dat1 V c).flushed 3 t = ((cfg1.win 3).blk t).view.read (Elt Ideal) (result V c) := by
  show (cfg1.win 3).cut (grid1.coords t) ((dat1 V c).after 3 t) = _
  rw [after1_3]
  unfold out1_3
  rw [View.canon_unit_zero hz]
  simp only [View.ld_unit_zero (S := S512x64) hz, View.ld_unit_zero (S := S64x512) hz]
  rw [blk0_eq, blk1_eq, blk2_eq]
  obtain ⟨-, -, -, -, -, -, e0, e1⟩ := idx_facts t
  funext y
  show result V c y = result V c (((cfg1.win 3).blk t).view.emb y)
  refine congrArg (result V c) (funext fun a => Fin.ext ?_)
  match a with
  | ⟨0, _⟩ => show (y 0).val = win1_3.index t (0 : Fin 2) * 64 + 1 * (y 0).val; rw [e0]; omega
  | ⟨1, _⟩ => show (y 1).val = win1_3.index t (1 : Fin 2) * 512 + 1 * (y 1).val; rw [e1]; omega

theorem mem_blk (t : Fin cfg1.N) (i : S64x512.Idx) :
    i ∈ ((cfg1.win 3).blk t).view.set ↔ ∀ a : Fin 2, win1_3.index t a * S64x512.size a ≤ (i a).val ∧ (i a).val < win1_3.index t a * S64x512.size a + S64x512.size a := by
  show i ∈ ((View.whole main_v15).slice (win1_3.rect t)).set ↔ _
  rw [View.set_slice_whole, Rect.mem_set_unit]
  exact Iff.rfl

/-- The result array after the region. -/
theorem array_eq (c : Dev nD) : (dat1 V c).arrAt 3 cfg1.N = result V c :=
  (dat1 V c).arrAt_eq_of_cover 3 (result V c) (fun t _ => flushed_eq V c t) fun i => by
    have h0 : (i 0).val < 64 := (i 0).isLt
    have h1 : (i 1).val < 512 := (i 1).isLt
    obtain ⟨-, -, -, -, -, -, e0, e1⟩ := idx_facts t1_0
    refine ⟨t1_0, flush1_3 t1_0, ?_⟩
    rw [mem_blk]
    intro a
    match a with
    | ⟨0, _⟩ => show win1_3.index t1_0 (0 : Fin 2) * 64 ≤ (i 0).val ∧ (i 0).val < win1_3.index t1_0 (0 : Fin 2) * 64 + 64
                rw [e0]; omega
    | ⟨1, _⟩ => show win1_3.index t1_0 (1 : Fin 2) * 512 ≤ (i 1).val ∧ (i 1).val < win1_3.index t1_0 (1 : Fin 2) * 512 + 512
                rw [e1]; omega

end Cert.KernelIdeal.SoftmaxRegion

end
-- ==== Proof.HostArrays.lean ====
/-
  The arrays the host prepares for the energy region, read at an index.

  Before the first region the host cuts the [1024, 2048] weight into its two [1024, 1024] halves and transposes each,
  computes the hidden term (the hidden state against the transposed first half, plus the bias repeated over the batch
  rows), transposes the scoring row into a column, and regroups the [512, 64, 1024] encoder outputs as 32768 rows.
  Entry by entry: the transposed second half at (f, h) is the weight at (h, 1024 + f); the transposed first half at
  (f, h) is the weight at (h, f); row s·64 + b of the regrouped array is (s, b); the column at (h, 0) is the row at (0, h).
-/
import proofs.«179689_j68616397521505_2_alg».proof.Proof.Gen.KernelIdeal
import proofs.«179689_j68616397521505_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HostArrays

open Cert.KernelIdeal Cert.KernelIdeal.Gen Idealize.ShloMosaic Idealize.ShloMosaic.ValueIdx Cert.Attn

theorem dot_S64x1024_S1024x1024_S64x1024_1_0_0_1_n_n_lhs0 (i : S64x1024.Idx) (q : dot_S64x1024_S1024x1024_S64x1024_1_0_0_1_n_n.contr.Idx) : (dot_S64x1024_S1024x1024_S64x1024_1_0_0_1_n_n.lhsIdx i q 0).val = (i 0).val := by
  unfold DotDims.lhsIdx
  rw [dif_neg (show ¬(0 : Fin S64x1024.rank) ∈ dot_S64x1024_S1024x1024_S64x1024_1_0_0_1_n_n.lhsBatch by decide), dif_pos (show (0 : Fin S64x1024.rank) ∈ dot_S64x1024_S1024x1024_S64x1024_1_0_0_1_n_n.lhsNonContracting by decide)]
  rfl
theorem dot_S64x1024_S1024x1024_S64x1024_1_0_0_1_n_n_lhs1 (i : S64x1024.Idx) (q : dot_S64x1024_S1024x1024_S64x1024_1_0_0_1_n_n.contr.Idx) : (dot_S64x1024_S1024x1024_S64x1024_1_0_0_1_n_n.lhsIdx i q 1).val = (q ⟨0, by decide⟩).val :=
  dot_S64x1024_S1024x1024_S64x1024_1_0_0_1_n_n.lhsIdx_val_of_single rfl i q
theorem dot_S64x1024_S1024x1024_S64x1024_1_0_0_1_n_n_rhs0 (i : S64x1024.Idx) (q : dot_S64x1024_S1024x1024_S64x1024_1_0_0_1_n_n.contr.Idx) : (dot_S64x1024_S1024x1024_S64x1024_1_0_0_1_n_n.rhsIdx i q 0).val = (q ⟨0, by decide⟩).val :=
  dot_S64x1024_S1024x1024_S64x1024_1_0_0_1_n_n.rhsIdx_val_of_single rfl i q
theorem dot_S64x1024_S1024x1024_S64x1024_1_0_0_1_n_n_rhs1 (i : S64x1024.Idx) (q : dot_S64x1024_S1024x1024_S64x1024_1_0_0_1_n_n.contr.Idx) : (dot_S64x1024_S1024x1024_S64x1024_1_0_0_1_n_n.rhsIdx i q 1).val = (i 1).val := by
  unfold DotDims.rhsIdx
  rw [dif_neg (show ¬(1 : Fin S1024x1024.rank) ∈ dot_S64x1024_S1024x1024_S64x1024_1_0_0_1_n_n.rhsBatch by decide), dif_pos (show (1 : Fin S1024x1024.rank) ∈ dot_S64x1024_S1024x1024_S64x1024_1_0_0_1_n_n.rhsNonContracting by decide)]
  rfl
/-- The contraction's operand indices at output (n, j) and contraction coordinate k are (n, k) and (k, j). -/
theorem dot_S64x1024_S1024x1024_S64x1024_1_0_0_1_n_n_lidx (n : Fin 64) (j : Fin 1024) (k : Fin 1024) :
    dot_S64x1024_S1024x1024_S64x1024_1_0_0_1_n_n.lhsIdx (ix2 n j) ((contrEquiv1 dot_S64x1024_S1024x1024_S64x1024_1_0_0_1_n_n 1024 rfl rfl).symm k) = ix2 n k :=
  funext fun a => Fin.ext (by
    have hk := contrEquiv1_symm_val dot_S64x1024_S1024x1024_S64x1024_1_0_0_1_n_n 1024 rfl rfl k
    match a with
    | ⟨0, _⟩ => exact dot_S64x1024_S1024x1024_S64x1024_1_0_0_1_n_n_lhs0 _ _
    | ⟨1, _⟩ => exact (dot_S64x1024_S1024x1024_S64x1024_1_0_0_1_n_n_lhs1 _ _).trans hk)
theorem dot_S64x1024_S1024x1024_S64x1024_1_0_0_1_n_n_ridx (n : Fin 64) (j : Fin 1024) (k : Fin 1024) :
    dot_S64x1024_S1024x1024_S64x1024_1_0_0_1_n_n.rhsIdx (ix2 n j) ((contrEquiv1 dot_S64x1024_S1024x1024_S64x1024_1_0_0_1_n_n 1024 rfl rfl).symm k) = ix2 k j :=
  funext fun a => Fin.ext (by
    have hk := contrEquiv1_symm_val dot_S64x1024_S1024x1024_S64x1024_1_0_0_1_n_n 1024 rfl rfl k
    match a with
    | ⟨0, _⟩ => exact (dot_S64x1024_S1024x1024_S64x1024_1_0_0_1_n_n_rhs0 _ _).trans hk
    | ⟨1, _⟩ => exact dot_S64x1024_S1024x1024_S64x1024_1_0_0_1_n_n_rhs1 _ _)

/-- The host's product of a [64, 1024] array with a [1024, 1024] array, entry by entry. -/
theorem hostProduct_apply (l : FVec Ideal S64x1024 .f32) (w : FVec Ideal S1024x1024 .f32) (q : Fin 64) (h : Fin 1024) :
    Host.dotGeneral dot_S64x1024_S1024x1024_S64x1024_1_0_0_1_n_n none l w (ix2 q h) = ∑ k : Fin 1024, l (ix2 q k) * w (ix2 k h) := by
  simp only [Host.dotGeneral]
  rw [Ideal.dotGeneral_apply, ← Equiv.sum_comp (contrEquiv1 dot_S64x1024_S1024x1024_S64x1024_1_0_0_1_n_n 1024 rfl rfl).symm]
  refine Finset.sum_congr rfl fun k _ => ?_
  rw [dot_S64x1024_S1024x1024_S64x1024_1_0_0_1_n_n_lidx, dot_S64x1024_S1024x1024_S64x1024_1_0_0_1_n_n_ridx]

variable (a0 : FVec Ideal S1x64x1024 .f32) (a1 : FVec Ideal S512x64x1024 .f32) (a4 : FVec Ideal S1024x2048 .f32)
  (a5 : FVec Ideal S1024 .f32) (a6 : FVec Ideal S1x1024 .f32)

/-- The encoder outputs regrouped as 32768 rows. -/
def rowsArr : FVec Ideal S32768x1024 .f32 := shapeCast S32768x1024 a1 shapeCasts_S512x64x1024_S32768x1024

/-- The weight's second half, transposed. -/
def encWeights : FVec Ideal S1024x1024 .bf16 :=
  truncf .bf16 (transpose S1024x1024 [1, 0] (extractStridedSlice S1024x1024 ![0, 1024] a4 slices_S1024x2048_S1024x1024_0_1024)
    transposes_S1024x1024_S1024x1024_1_0) bitsLt_bf16_f32

/-- The weight's first half, transposed. -/
def hidWeights : FVec Ideal S1024x1024 .f32 :=
  transpose S1024x1024 [1, 0] (extractStridedSlice S1024x1024 ![0, 0] a4 slices_S1024x2048_S1024x1024_0_0) transposes_S1024x1024_S1024x1024_1_0

/-- The hidden term as the host computes it. -/
def hiddenArr : FVec Ideal S64x1024 .f32 :=
  addf (Host.dotGeneral dot_S64x1024_S1024x1024_S64x1024_1_0_0_1_n_n none (shapeCast S64x1024 a0 shapeCasts_S1x64x1024_S64x1024) (hidWeights a4))
    (broadcastInDim S64x1024 ![0, 1] bcast_S1x1024_S64x1024_0_1 (broadcastInDim S1x1024 ![1] bcast_S1024_S1x1024_1 a5))

/-- The scoring row as a column. -/
def scoreCol : FVec Ideal S1024x1 .bf16 :=
  truncf .bf16 (transpose S1024x1 [1, 0] a6 transposes_S1x1024_S1024x1_1_0) bitsLt_bf16_f32

theorem rowsArr_apply (s : Fin 512) (b : Fin 64) (f : Fin 1024) (n : Fin 32768) (hn : n.val = s.val * 64 + b.val) :
    rowsArr a1 (ix2 n f) = a1 (ix3 s b f) := by
  unfold rowsArr
  exact shapeCast_apply a1 shapeCasts_S512x64x1024_S32768x1024 (ix2 n f) (ix3 s b f) (by
    rw [Shape.rowMajor_val_three, Shape.rowMajor_val_two]
    show (s.val * 64 + b.val) * 1024 + f.val = n.val * 1024 + f.val
    rw [hn])

theorem encWeights_apply (f : Fin 1024) (h : Fin 1024) : encWeights a4 (ix2 f h) = a4 (ix2 h (hi f)) := by
  unfold encWeights
  refine (truncf_apply _ bitsLt_bf16_f32 _).trans ?_
  refine (transpose_ix2_apply _ transposes_S1024x1024_S1024x1024_1_0 f h).trans ?_
  exact slice2_axis1_apply 1024 a4 slices_S1024x2048_S1024x1024_0_1024 h f (hi f) rfl

theorem hidWeights_apply (f : Fin 1024) (h : Fin 1024) : hidWeights a4 (ix2 f h) = a4 (ix2 h (lo f)) := by
  unfold hidWeights
  refine (transpose_ix2_apply _ transposes_S1024x1024_S1024x1024_1_0 f h).trans ?_
  exact slice2_axis1_apply 0 a4 slices_S1024x2048_S1024x1024_0_0 h f (lo f) (by show f.val = 0 + f.val; omega)

theorem hiddenArr_apply (q : Fin 64) (h : Fin 1024) : hiddenArr a0 a4 a5 (ix2 q h) = hiddenTerm a0 a4 a5 q h := by
  unfold hiddenArr hiddenTerm
  refine (addf_apply _ _ _).trans ?_
  refine congrArg₂ (· + ·) ?_ ?_
  · rw [hostProduct_apply]
    refine Finset.sum_congr rfl fun k _ => ?_
    rw [hidWeights_apply, shapeCast_1ab_ab_apply]
  · refine (broadcastInDim_apply _ bcast_S1x1024_S64x1024_0_1 _ (ix2 q h) (ix2 (0 : Fin 1) h) (fun a => by
      match a with
      | ⟨0, _⟩ => show 0 = if (1 : Nat) = 1 then 0 else q.val; rw [if_pos rfl]
      | ⟨1, _⟩ => show h.val = if (1024 : Nat) = 1 then 0 else h.val; rw [if_neg (by decide)])).trans ?_
    exact broadcastInDim_apply _ bcast_S1024_S1x1024_1 a5 (ix2 (0 : Fin 1) h) (ix1 h) (fun a => by
      match a with
      | ⟨0, _⟩ => show h.val = if (1024 : Nat) = 1 then 0 else h.val; rw [if_neg (by decide)])

theorem scoreCol_apply (h : Fin 1024) : scoreCol a6 (ix2 h (0 : Fin 1)) = a6 (ix2 (0 : Fin 1) h) := by
  unfold scoreCol
  refine (truncf_apply _ bitsLt_bf16_f32 _).trans ?_
  exact transpose_ix2_apply _ transposes_S1x1024_S1024x1_1_0 h (0 : Fin 1)

end Cert.KernelIdeal.HostArrays

end
-- ==== Proof.KernelValue.lean ====
/-
  The idealized program's result is the attention scores of the specification.

  Reading the run's last boundary back through the program: the result is the softmax region's array with a unit
  axis inserted; that array is the softmax body's value of the score array, the additive term and the widened mask;
  the score array is the energy region's, whose blocks tile it and hold, entry by entry, the scaled scores of the
  specification once the host-prepared arrays are read at their indices; the additive term and the mask are the
  arguments themselves, no region or host operation having written them. A mask bit widened to 32 bits is not zero
  exactly when the bit is one.
-/
import proofs.«179689_j68616397521505_2_alg».proof.Proof.Gen.KernelIdeal.Frame
import proofs.«179689_j68616397521505_2_alg».proof.Proof.EnergyRegion
import proofs.«179689_j68616397521505_2_alg».proof.Proof.SoftmaxRegion
import proofs.«179689_j68616397521505_2_alg».proof.Proof.HostArrays
import Idealize.ShloMosaic.Lib.StableHlo.Run

set_option maxRecDepth 16384

noncomputable section

namespace Cert.KernelIdeal.Whole

open Cert.KernelIdeal Cert.KernelIdeal.Gen Cert.KernelIdeal.HostArrays Cert.KernelIdeal.EnergyRegion Cert.KernelIdeal.EnergyBody
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg) (c : Dev nD)

/-- A mask bit widened to a 32-bit word differs from zero exactly when it is set. -/
theorem mask_word (x : BitVec 1) : IntOp.cmpi .ne (x.setWidth 32) 0#32 = x := by
  by_cases hx : x = 1#1
  · subst hx; decide
  · have h0 := eq_zero_of_ne_one hx; subst h0; decide

/-! ## The arrays the energy region finds -/

theorem rows_entry : V1 m ρ c main_v12 = rowsArr (m ((c : Thread nD τ).loc main_arg1)) := by
  show StableHlo.after hostOps0 (W0 m ρ c) (Proc.devRef .tc main_v12) = _
  after_results
  all_goals rfl

theorem weights_entry : V1 m ρ c main_v9 = encWeights (m ((c : Thread nD τ).loc main_arg4)) := by
  show StableHlo.after hostOps0 (W0 m ρ c) (Proc.devRef .tc main_v9) = _
  after_results
  all_goals rfl

theorem hidden_entry : V1 m ρ c main_v8
    = hiddenArr (m ((c : Thread nD τ).loc main_arg0)) (m ((c : Thread nD τ).loc main_arg4)) (m ((c : Thread nD τ).loc main_arg5)) := by
  show StableHlo.after hostOps0 (W0 m ρ c) (Proc.devRef .tc main_v8) = _
  after_results
  all_goals rfl

theorem column_entry : V1 m ρ c main_v11 = scoreCol (m ((c : Thread nD τ).loc main_arg6)) := by
  show StableHlo.after hostOps0 (W0 m ρ c) (Proc.devRef .tc main_v11) = _
  after_results
  all_goals rfl

/-- The specification's scaled scores as the [512, 64] array. -/
abbrev scoreArr : S512x64.Idx → EReal := fun i =>
  Cert.Attn.logit (m ((c : Thread nD τ).loc main_arg0)) (m ((c : Thread nD τ).loc main_arg1)) (m ((c : Thread nD τ).loc main_arg4))
    (m ((c : Thread nD τ).loc main_arg5)) (m ((c : Thread nD τ).loc main_arg6)) (i 0 : Fin 512) (i 1 : Fin 64)

/-- After the energy region the score array holds the specification's scaled scores. -/
theorem scores_after : (dat0 (V1 m ρ) c).arrAt 4 cfg0.N = scoreArr m c :=
  EnergyRegion.array_eq (V1 m ρ) c _ _ _ _ (rows_entry m ρ c) (weights_entry m ρ c) (hidden_entry m ρ c) (column_entry m ρ c)
    (scoreArr m c) (fun t r q => by
      have e12 : ∀ f : Fin 1024, rowsArr (m ((c : Thread nD τ).loc main_arg1)) (ix2 (arow t (row r q)) f)
          = (m ((c : Thread nD τ).loc main_arg1) : S512x64x1024.Idx → EReal) (ix3 (srow t r) q f) := fun f =>
        rowsArr_apply _ (srow t r) q f _ (by
          show t.val * 2048 + (r.val * 64 + q.val) = (t.val * 32 + r.val) * 64 + q.val
          omega)
      simp only [e12, encWeights_apply, hiddenArr_apply, scoreCol_apply]
      rfl)

/-! ## The arrays the softmax region finds -/

theorem scores_entry : V3 m ρ c main_v13 = scoreArr m c := by
  show StableHlo.after hostOps1 (W2 m ρ c) (Proc.devRef .tc main_v13) = _
  after_results
  exact (W2_arr m ρ c 4).trans (scores_after m ρ c)

theorem additive_entry : V3 m ρ c main_arg2 = m ((c : Thread nD τ).loc main_arg2) := by
  show StableHlo.after hostOps1 (W2 m ρ c) (Proc.devRef .tc main_arg2) = _
  after_results
  rw [W2_of_ne m ρ c main_arg2 (by decide)]
  show StableHlo.after hostOps0 (W0 m ρ c) (Proc.devRef .tc main_arg2) = _
  after_results
  all_goals rfl

theorem mask_entry : V3 m ρ c main_v14 = extui 32 (m ((c : Thread nD τ).loc main_arg3)) natLt_1_32 := by
  show StableHlo.after hostOps1 (W2 m ρ c) (Proc.devRef .tc main_v14) = _
  after_results
  rw [W2_of_ne m ρ c main_arg3 (by decide)]
  show extui 32 (StableHlo.after hostOps0 (W0 m ρ c) (Proc.devRef .tc main_arg3)) natLt_1_32 = _
  after_results
  all_goals rfl

/-! ## The result -/

/-- The result buffer at the end of the run holds the specification's attention scores of the launch arguments. -/
theorem result_eq : W5 m ρ c (Proc.devRef .tc main_v16)
    = Cert.Attn.attn (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  have e16 : W5 m ρ c (Proc.devRef .tc main_v16)
      = broadcastInDim S64x1x512 ![0, 2] bcast_S64x512_S64x1x512_0_2 (W4 m ρ c (Proc.devRef .tc main_v15)) := by
    show StableHlo.after hostOps2 (W4 m ρ c) (Proc.devRef .tc main_v16) = _
    after_results
    all_goals rfl
  have e15 : W4 m ρ c (Proc.devRef .tc main_v15)
      = k1_pay1 (F := Ideal) (V3 m ρ c main_v13) (V3 m ρ c main_arg2) (V3 m ρ c main_v14) :=
    (W4_arr m ρ c 3).trans (SoftmaxRegion.array_eq (V3 m ρ) c)
  rw [e16, e15, scores_entry, additive_entry, mask_entry]
  funext i
  obtain ⟨b, u, s, rfl⟩ : ∃ (b : Fin 64) (u : Fin 1) (s : Fin 512), i = ix3 b u s := ⟨i 0, i 1, i 2, eq_ix3 i⟩
  refine (broadcastInDim_apply _ bcast_S64x512_S64x1x512_0_2 _ (ix3 b u s) (ix2 b s) (fun a => by
    match a with
    | ⟨0, _⟩ => show b.val = if (64 : Nat) = 1 then 0 else b.val; rw [if_neg (by decide)]
    | ⟨1, _⟩ => show s.val = if (512 : Nat) = 1 then 0 else s.val; rw [if_neg (by decide)])).trans ?_
  rw [SoftmaxBody.payload_eq, SoftmaxBody.normalize_apply]
  unfold Cert.Attn.attn
  refine congrArg (fun x => Cert.Attn.softmax x b s) ?_
  funext b' s'
  rw [SoftmaxBody.scores_apply]
  unfold Cert.Attn.masked
  rw [show IntOp.cmpi .ne (extui 32 (m ((c : Thread nD τ).loc main_arg3)) natLt_1_32 (ix2 b' s')) 0#32
      = (m ((c : Thread nD τ).loc main_arg3) : S64x512.Idx → BitVec 1) (ix2 b' s') from mask_word _]

end Cert.KernelIdeal.Whole

end
-- ==== Proof.RefValue.lean ====
/-
  The reference computes the attention scores of the specification.

  The reference repeats the hidden state over the positions, joins it with the encoder outputs along the feature
  axis into 2H = 2048 features, and contracts the 2048 features with the whole weight. A sum over the 2048 joined
  features is the sum over the first 1024 (the hidden state's, against the weight's first 1024 columns) plus the sum
  over the last 1024 (the encoder outputs', against the last 1024 columns); with the bias added, reordering the three
  summands gives the specification's energy — addition of extended reals is commutative and associative, and no other
  law is used. The rest is read entry by entry: rectifier, scoring contraction, scale, transpose, additive term, mask,
  and the softmax along each row (the maximum's extra maximum with minus infinity changes nothing; the sum starts
  from zero).
-/
import proofs.«179689_j68616397521505_2_alg».proof.Proof.Gen.ReferenceIdeal.Read
import proofs.«179689_j68616397521505_2_alg».proof.Proof.Spec

noncomputable section

namespace Cert.ReferenceIdeal.Scores

open Cert.ReferenceIdeal Cert.ReferenceIdeal.Gen Cert.ReferenceIdeal.Read
open Idealize.ShloMosaic Idealize.ShloMosaic.ValueIdx Cert.Attn

variable (x0 : (⟨S1x64x1024, .f32⟩ : BufTy).Contents (Elt Ideal)) (x1 : (⟨S512x64x1024, .f32⟩ : BufTy).Contents (Elt Ideal))
  (x2 : (⟨S64x512, .f32⟩ : BufTy).Contents (Elt Ideal)) (x3 : (⟨S64x512, .i1⟩ : BufTy).Contents (Elt Ideal))
  (x4 : (⟨S1024x2048, .f32⟩ : BufTy).Contents (Elt Ideal)) (x5 : (⟨S1024, .f32⟩ : BufTy).Contents (Elt Ideal))
  (x6 : (⟨S1x1024, .f32⟩ : BufTy).Contents (Elt Ideal))

/-- The joined array at a column of the first half is the hidden state, whatever the position. -/
theorem joined_lo (s : Fin 512) (b : Fin 64) (f : Fin 1024) :
    val_main_v1 (F := Ideal) x0 x1 (ix3 s b (lo f)) = x0 (ix3 (0 : Fin 1) b f) := by
  unfold val_main_v1
  refine (concatenate_pair_apply_left 2 _ _ concatenates_S512x64x1024_S512x64x1024_S512x64x2048_d2 (ix3 s b (lo f)) rfl (ix3 s b f)
    (fun a => by match a with | ⟨0, _⟩ => rfl | ⟨1, _⟩ => rfl | ⟨2, _⟩ => rfl)).trans ?_
  rw [val_main_v0_apply]
  exact congrArg x0 (funext fun a => Fin.ext (by match a with | ⟨0, _⟩ => rfl | ⟨1, _⟩ => rfl | ⟨2, _⟩ => rfl))

/-- The joined array at a column of the second half is the encoder outputs. -/
theorem joined_hi (s : Fin 512) (b : Fin 64) (f : Fin 1024) :
    val_main_v1 (F := Ideal) x0 x1 (ix3 s b (hi f)) = x1 (ix3 s b f) := by
  unfold val_main_v1
  exact concatenate_pair_apply_right 2 _ _ concatenates_S512x64x1024_S512x64x1024_S512x64x2048_d2 (ix3 s b (hi f)) rfl rfl (ix3 s b f)
    (fun a ha => by
      match a with
      | ⟨0, _⟩ => rfl
      | ⟨1, _⟩ => rfl
      | ⟨2, _⟩ => exact absurd rfl ha)
    (by show f.val + 1024 = 1024 + f.val; omega)

/-- The first layer after the rectifier is the specification's energy. -/
theorem energy_eq (s : Fin 512) (b : Fin 64) (h : Fin 1024) :
    val_main_v6 (F := Ideal) x0 x1 x4 x5 (ix3 s b h) = energy x0 x1 x4 x5 s b h := by
  rw [val_main_v6_apply, val_main_v5_apply, val_main_v2_apply, val_main_v4_apply, val_main_v3_apply, val_main_call0_v0_apply,
    val_main_call0_cst_apply]
  have el : ∀ k : Fin 2048, lidx_main_v2 (ix3 s b h) k = ix3 s b k := fun k =>
    funext fun a => Fin.ext (by match a with | ⟨0, _⟩ => rfl | ⟨1, _⟩ => rfl | ⟨2, _⟩ => rfl)
  have er : ∀ k : Fin 2048, ridx_main_v2 (ix3 s b h) k = ix2 h k := fun k =>
    funext fun a => Fin.ext (by match a with | ⟨0, _⟩ => rfl | ⟨1, _⟩ => rfl)
  have eb : idx_main_v3 (idx_main_v4 (ix3 s b h)) = ix1 h :=
    funext fun a => Fin.ext (by match a with | ⟨0, _⟩ => rfl)
  simp only [el, er, eb]
  rw [sum_halves]
  simp only [joined_lo, joined_hi]
  unfold energy hiddenTerm
  show max (((∑ f : Fin 1024, x0 (ix3 (0 : Fin 1) b f) * x4 (ix2 h (lo f))) + ∑ f : Fin 1024, x1 (ix3 s b f) * x4 (ix2 h (hi f))) + x5 (ix1 h)) zeroW = _
  rw [add_comm (∑ f : Fin 1024, x0 (ix3 (0 : Fin 1) b f) * x4 (ix2 h (lo f))), add_assoc]

/-- The scaled scores. -/
theorem logit_eq (s : Fin 512) (b : Fin 64) :
    val_main_v10 (F := Ideal) x0 x1 x4 x5 x6 (ix2 s b) = logit x0 x1 x4 x5 x6 s b := by
  rw [val_main_v10_apply, val_main_v9_apply, val_main_cst_apply, val_main_v8_apply, val_main_v7_apply]
  have ei : idx_main_v8 (ix2 s b) = ix3 s b (0 : Fin 1) :=
    funext fun a => Fin.ext (by
      have hs := s.isLt; have hb := b.isLt
      match a with
      | ⟨0, _⟩ => show (s.val * 64 + b.val) / 64 = s.val; omega
      | ⟨1, _⟩ => show (s.val * 64 + b.val) / 1 % 64 = b.val; omega
      | ⟨2, _⟩ => rfl)
  have el : ∀ k : Fin 1024, lidx_main_v7 (ix3 s b (0 : Fin 1)) k = ix3 s b k := fun k =>
    funext fun a => Fin.ext (by match a with | ⟨0, _⟩ => rfl | ⟨1, _⟩ => rfl | ⟨2, _⟩ => rfl)
  have er : ∀ k : Fin 1024, ridx_main_v7 (ix3 s b (0 : Fin 1)) k = ix2 (0 : Fin 1) k := fun k =>
    funext fun a => Fin.ext (by match a with | ⟨0, _⟩ => rfl | ⟨1, _⟩ => rfl)
  simp only [ei, el, er, energy_eq]
  rfl

/-- The masked scores. -/
theorem masked_eq (b : Fin 64) (s : Fin 512) :
    val_main_v13 (F := Ideal) x0 x1 x2 x3 x4 x5 x6 (ix2 b s) = masked x2 x3 (logit x0 x1 x4 x5 x6) b s := by
  rw [val_main_v13_apply, val_main_call1_v0_apply, val_main_cst_0_apply, val_main_v12_apply, val_main_v11_apply]
  have ei : idx_main_v11 (ix2 b s) = ix2 s b :=
    funext fun a => Fin.ext (by match a with | ⟨0, _⟩ => rfl | ⟨1, _⟩ => rfl)
  rw [ei, logit_eq]
  rfl

/-- Each row's maximum: the maximum with minus infinity of the fold from minus infinity is the fold. -/
theorem rowMax_eq (b : Fin 64) :
    val_main_v16 (F := Ideal) x0 x1 x2 x3 x4 x5 x6 (ix1 b) = rowMax (masked x2 x3 (logit x0 x1 x4 x5 x6)) b := by
  rw [val_main_v16_apply, val_main_v15_apply, val_main_cst_2_apply]
  unfold val_main_v14
  rw [Host.reduce_eq_fold_single FloatOps.maximumf _ _ reducesTo_S64x512_S64_d1 (by decide) h_S_ (ix1 b)]
  have e : (val_main_v13 (F := Ideal) x0 x1 x2 x3 x4 x5 x6 ∘ (by decide : S64x512.Reduces [1] S64).lift (ix1 b))
      = fun s : Fin 512 => masked x2 x3 (logit x0 x1 x4 x5 x6) b s :=
    funext fun k => (congrArg (val_main_v13 (F := Ideal) x0 x1 x2 x3 x4 x5 x6)
      (funext fun a => Fin.ext (by match a with | ⟨0, _⟩ => rfl | ⟨1, _⟩ => rfl))).trans (masked_eq x0 x1 x2 x3 x4 x5 x6 b k)
  rw [e]
  unfold rowMax
  show max negInfW ((Finset.univ : Finset (Fin 512)).fold max negInfW _) = _
  exact max_eq_right ((Finset.le_fold_max _).mpr (Or.inl le_rfl))

/-- The exponential of each entry less its row's maximum. -/
theorem exp_eq (b : Fin 64) (s : Fin 512) :
    val_main_v20 (F := Ideal) x0 x1 x2 x3 x4 x5 x6 (ix2 b s)
      = Ideal.exp (masked x2 x3 (logit x0 x1 x4 x5 x6) b s - rowMax (masked x2 x3 (logit x0 x1 x4 x5 x6)) b) := by
  rw [val_main_v20_apply, val_main_v19_apply, val_main_v18_apply, val_main_v17_apply, masked_eq]
  have ei : idx_main_v17 (idx_main_v18 (ix2 b s)) = ix1 b :=
    funext fun a => Fin.ext (by match a with | ⟨0, _⟩ => rfl)
  rw [ei, rowMax_eq]
  rfl

/-- The reference's result is the specification's. -/
theorem result_eq : val_main_v25 (F := Ideal) x0 x1 x2 x3 x4 x5 x6 = attn x0 x1 x2 x3 x4 x5 x6 := by
  funext i
  obtain ⟨b, u, s, rfl⟩ : ∃ (b : Fin 64) (u : Fin 1) (s : Fin 512), i = ix3 b u s := ⟨i 0, i 1, i 2, eq_ix3 i⟩
  rw [val_main_v25_apply, val_main_v24_apply, val_main_v23_apply, val_main_v22_apply, val_main_v21_apply, val_main_cst_3_apply]
  have ei : idx_main_v25 (ix3 b u s) = ix2 b s :=
    funext fun a => Fin.ext (by match a with | ⟨0, _⟩ => rfl | ⟨1, _⟩ => rfl)
  have ej : idx_main_v22 (idx_main_v23 (ix2 b s)) = ix1 b :=
    funext fun a => Fin.ext (by match a with | ⟨0, _⟩ => rfl)
  have ek : ∀ k : Fin 512, idx_main_v21 (ix1 b) k = ix2 b k := fun k =>
    funext fun a => Fin.ext (by match a with | ⟨0, _⟩ => rfl | ⟨1, _⟩ => rfl)
  simp only [ei, ej, ek, exp_eq]
  show Ideal.div _ (Ideal.ofBits .f32 0x00000000#32 + _) = _
  rw [Ideal.ofBits_zero_f32, zero_add]
  rfl

end Cert.ReferenceIdeal.Scores

end
-- ==== Proof.lean ====
/-
  The certificate's five claims.

  Both programs compute, on the extended reals, the attention scores of Proof/Spec.lean:
  softmax over the positions of  scale · Ws · relu (Wa · [hidden ; encoder outputs] + ba) + pe,  the masked
  positions at the fill value. The kernel program splits the first layer — the hidden state against the first half of
  Wa's columns once on the host, the encoder outputs against the second half in a 16-point region — and takes the
  softmax in a second, one-point region; the reference joins the two inputs and contracts all 2048 columns at once.
  The two first layers differ by the grouping and order of a finite sum of extended reals, which is associative and
  commutative; everything after it is the same operations entry by entry. No finiteness of the inputs is used.

  The three frames are the generated ones (the reference's is its generated run with the result dropped); nothing was
  rewritten by the idealization, so that claim is trivial; the value claim names the specification's array as the
  common result.
-/
import proofs.«179689_j68616397521505_2_alg».proof.Defs
import proofs.«179689_j68616397521505_2_alg».proof.Proof.Gen.Kernel
import proofs.«179689_j68616397521505_2_alg».proof.Proof.Gen.Kernel.Skeleton
import proofs.«179689_j68616397521505_2_alg».proof.Proof.Gen.Kernel.Launch
import proofs.«179689_j68616397521505_2_alg».proof.Proof.Gen.Kernel.Points
import proofs.«179689_j68616397521505_2_alg».proof.Proof.Gen.Kernel.Frame
import proofs.«179689_j68616397521505_2_alg».proof.Proof.Gen.KernelIdeal
import proofs.«179689_j68616397521505_2_alg».proof.Proof.Gen.KernelIdeal.Skeleton
import proofs.«179689_j68616397521505_2_alg».proof.Proof.Gen.KernelIdeal.Launch
import proofs.«179689_j68616397521505_2_alg».proof.Proof.Gen.KernelIdeal.Points
import proofs.«179689_j68616397521505_2_alg».proof.Proof.Gen.KernelIdeal.Frame
import proofs.«179689_j68616397521505_2_alg».proof.Proof.Gen.ReferenceIdeal
import proofs.«179689_j68616397521505_2_alg».proof.Proof.Gen.Pre_finite_inputs
import proofs.«179689_j68616397521505_2_alg».proof.Proof.Gen.ReferenceIdeal.Run
import proofs.«179689_j68616397521505_2_alg».proof.Proof.Gen.ReferenceIdeal.Read
import proofs.«179689_j68616397521505_2_alg».proof.Proof.KernelRun
import proofs.«179689_j68616397521505_2_alg».proof.Proof.KernelValue
import proofs.«179689_j68616397521505_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the seven arguments both programs end with the specification's attention scores of
    those arguments in their result buffers. -/
theorem algebraic : Cert.algebraic_KernelIdeal_ReferenceIdeal := by
  intro m ρ m' ρ' _ hagree
  refine ⟨fun c => Cert.Attn.attn
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Whole.result_eq m ρ c), (h c).2⟩)
      (Cert.KernelIdeal.WholeRun.run (F := Ideal) m ρ)
  · refine (θ_run Cert.ReferenceIdeal.defs _ _).mono (fun _ h c => ⟨?_, (h c).2⟩)
      (Cert.ReferenceIdeal.Value.run (F := Ideal) m' ρ')
    obtain ⟨h0, h1, h2, h3, h4, h5, h6⟩ := hagree c
    rw [(h c).1, Cert.ReferenceIdeal.Read.val_main_v25_eq, Cert.ReferenceIdeal.Scores.result_eq, h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
